-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x500000 : Shape := ⟨2, ![2, 500000]⟩
abbrev S500000x16 : Shape := ⟨2, ![500000, 16]⟩
abbrev S50000x256 : Shape := ⟨2, ![50000, 256]⟩
abbrev S144x128 : Shape := ⟨2, ![144, 128]⟩
abbrev S128 : Shape := ⟨1, ![128]⟩
abbrev S128x128 : Shape := ⟨2, ![128, 128]⟩
abbrev S256x256 : Shape := ⟨2, ![256, 256]⟩
abbrev S256 : Shape := ⟨1, ![256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S50000x256 : S_.BroadcastsInDim S50000x256 (![] : Fin 0 → Fin S50000x256.rank)
  reducesTo_S50000x256_S_d0_1 : S50000x256.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg20 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg16 : FVec F S128 .f32) (main_arg17 : FVec F S128x128 .f32) (main_arg18 : FVec F S128 .f32) (main_arg19 : FVec F S256x256 .f32) (main_arg20 : FVec F S256 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S144x128 .f32) (main_arg14 : FVec F S128 .f32) (main_arg15 : FVec F S128x128 .f32) (main_arg16 : FVec F S128 .f32) (main_arg17 : FVec F S128x128 .f32) (main_arg18 : FVec F S128 .f32) (main_arg19 : FVec F S256x256 .f32) (main_arg20 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S144x128 .f32 := Host.absf main_arg13
  let main_cst_20 : FVec F S_ .f32 := constant S_ .f32 0x7F800000#32
  let main_v55 : FVec F S144x128 .f32 := broadcastInDim S144x128 ![] bcast_S_S144x128 main_cst_20
  let main_v56 : IVec S144x128 1 := cmpf .olt main_v54 main_v55
  let main_c_21 : IVec S_ 1 := constantI S_ 1 1#1
  let main_v57 : IVec S_ 1 := (fun x v => Host.reduce IntOp.andi x v reducesTo_S144x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S144x128 .f32) (main_arg14 : FVec F S128 .f32) (main_arg15 : FVec F S128x128 .f32) (main_arg16 : FVec F S128 .f32) (main_arg17 : FVec F S128x128 .f32) (main_arg18 : FVec F S128 .f32) (main_arg19 : FVec F S256x256 .f32) (main_arg20 : FVec F S256 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S50000x256 .f32) (main_arg7 : FVec F S144x128 .f32) (main_arg8 : FVec F S128 .f32) (main_arg9 : FVec F S128x128 .f32) (main_arg10 : FVec F S128 .f32) (main_arg11 : FVec F S128x128 .f32) (main_arg12 : FVec F S128 .f32) (main_arg13 : FVec F S144x128 .f32) (main_arg14 : FVec F S128 .f32) (main_arg15 : FVec F S128x128 .f32) (main_arg16 : FVec F S128 .f32) (main_arg17 : FVec F S128x128 .f32) (main_arg18 : FVec F S128 .f32) (main_arg19 : FVec F S256x256 .f32) (main_arg20 : FVec F S256 .f32) (main_v13 : IVec S_ 1) (main_v16 : IVec S500000x16 1) : IVec S_ 1 :=
  let main_c_5 : IVec S_ 1 := constantI S_ 1 1#1
  let main_v17 : IVec S_ 1 := (fun x v => Host.reduce IntOp.andi x v reducesTo_S500000x16_S_d0_1 h_S_) main_v16 main_c_5
  let main_v18 : IVec S_ 1 := andi main_v13 main_v17
  let main_v19 : FVec F S50000x256 .f32 := Host.absf main_arg6
  let main_cst_6 : FVec F S_ .f32 := constant S_ .f32 0x7F800000#32
  let main_v20 : FVec F S50000x256 .f32 := broadcastInDim S50000x256 ![] bcast_S_S50000x256 main_cst_6
  let main_v21 : IVec S50000x256 1 := cmpf .olt main_v19 main_v20
  let main_c_7 : IVec S_ 1 := constantI S_ 1 1#1
  let main_v22 : IVec S_ 1 := (fun x v => Host.reduce IntOp.andi x v reducesTo_S50000x256_S_d0_1 h_S_) main_v21 main_c_7
  let main_v23 : IVec S_ 1 := andi main_v18 main_v22
  let main_v24 : FVec F S144x128 .f32 := Host.absf main_arg7
  let main_cst_8 : FVec F S_ .f32 := constant S_ .f32 0x7F800000#32
  let main_v25 : FVec F S144x128 .f32 := broadcastInDim S144x128 ![] bcast_S_S144x128 main_cst_8
  let main_v26 : IVec S144x128 1 := cmpf .olt main_v24 main_v25
  let main_c_9 : IVec S_ 1 := constantI S_ 1 1#1
  let main_v27 : IVec S_ 1 := (fun x v => Host.reduce IntOp.andi x v reducesTo_S144x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x64 .f32) (main_arg1 : IVec S2x500000 32) (main_arg2 : FVec F S500000x16 .f32) (main_arg3 : FVec F S50000x64 .f32) (main_arg4 : IVec S2x500000 32) (main_arg5 : FVec F S500000x16 .f32) (main_arg6 : FVec F S50000x256 .f32) (main_arg7 : FVec F S144x128 .f32) (main_arg8 : FVec F S128 .f32) (main_arg9 : FVec F S128x128 .f32) (main_arg10 : FVec F S128 .f32) (main_arg11 : FVec F S128x128 .f32) (main_arg12 : FVec F S128 .f32) (main_arg13 : FVec F S144x128 .f32) (main_arg14 : FVec F S128 .f32) (main_arg15 : FVec F S128x128 .f32) (main_arg16 : FVec F S128 .f32) (main_arg17 : FVec F S128x128 .f32) (main_arg18 : FVec F S128 .f32) (main_arg19 : FVec F S256x256 .f32) (main_arg20 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S500000x16 .f32 := Host.absf main_arg2
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S500000x16 .f32 := Host.absf main_arg5
  let main_cst_4 : FVec F S_ .f32 := constant S_ .f32 0x7F800000#32
  let main_v15 : FVec F S500000x16 .f32 := broadcastInDim S500000x16 ![] bcast_S_S500000x16 main_cst_4
  let main_v16 : IVec S500000x16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x64 : Shape := ⟨2, ![50000, 64]⟩
abbrev S2x500000 : Shape := ⟨2, ![2, 500000]⟩
abbrev S500000x16 : Shape := ⟨2, ![500000, 16]⟩
abbrev S50000x256 : Shape := ⟨2, ![50000, 256]⟩
abbrev S144x128 : Shape := ⟨2, ![144, 128]⟩
abbrev S128 : Shape := ⟨1, ![128]⟩
abbrev S128x128 : Shape := ⟨2, ![128, 128]⟩
abbrev S256x256 : Shape := ⟨2, ![256, 256]⟩
abbrev S256 : Shape := ⟨1, ![256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x64 : Shape := ⟨2, ![500000, 64]⟩
abbrev S64x128 : Shape := ⟨2, ![64, 128]⟩
abbrev S16x128 : Shape := ⟨2, ![16, 128]⟩
abbrev S1x128 : Shape := ⟨2, ![1, 128]⟩
abbrev S500000x128 : Shape := ⟨2, ![500000, 128]⟩
abbrev S5000x64 : Shape := ⟨2, ![5000, 64]⟩
abbrev S5000x16 : Shape := ⟨2, ![5000, 16]⟩
abbrev S5000x128 : Shape := ⟨2, ![5000, 128]⟩
abbrev S50000x128 : Shape := ⟨2, ![50000, 128]⟩
abbrev S1x256 : Shape := ⟨2, ![1, 256]⟩
abbrev S5000x256 : Shape := ⟨2, ![5000, 256]⟩

abbrev nBuf : Space → Nat
  | .hbm => 98
  | .vmem => 46
  | .smem => 0
  | _ => 0

abbrev bufTy : (tb : Table) → Fin (tcTables nBuf tb) → BufTy
  | .hbm, ⟨0, _⟩ => ⟨S50000x64, .f32⟩
  | .hbm, ⟨1, _⟩ => ⟨S2x500000, .i32⟩
  | .hbm, ⟨2, _⟩ => ⟨S500000x16, .f32⟩
  | .hbm, ⟨3, _⟩ => ⟨S50000x64, .f32⟩
  | .hbm, ⟨4, _⟩ => ⟨S2x500000, .i32⟩
  | .hbm, ⟨5, _⟩ => ⟨S500000x16, .f32⟩
  | .hbm, ⟨6, _⟩ => ⟨S50000x256, .f32⟩
  | .hbm, ⟨7, _⟩ => ⟨S144x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S144x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S256x256, .f32⟩
  | .hbm, ⟨20, _⟩ => ⟨S256, .f32⟩
  | .hbm, ⟨21, _⟩ => ⟨S1x500000, .i32⟩
  | .hbm, ⟨22, _⟩ => ⟨S500000, .i32⟩
  | .hbm, ⟨23, _⟩ => ⟨S1x500000, .i32⟩
  | .hbm, ⟨24, _⟩ => ⟨S500000, .i32⟩
  | .hbm, ⟨25, _⟩ => ⟨S50000x64, .bf16⟩
  | .hbm, ⟨26, _⟩ => ⟨S500000x16, .bf16⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x64, .bf16⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x64, .bf16⟩
  | .hbm, ⟨45, _⟩ => ⟨S64x128, .f32⟩
  | .hbm, ⟨46, _⟩ => ⟨S64x128, .f32⟩
  | .hbm, ⟨47, _⟩ => ⟨S16x128, .f32⟩
  | .hbm, ⟨48, _⟩ => ⟨S1x128, .f32⟩
  | .hbm, ⟨49, _⟩ => ⟨S1x128, .f32⟩
  | .hbm, ⟨50, _⟩ => ⟨S500000x128, .bf16⟩
  | .hbm, ⟨51, _⟩ => ⟨S500000x128, .f32⟩
  | .hbm, ⟨52, _⟩ => ⟨S_, .f32⟩
  | .hbm, ⟨53, _⟩ => ⟨S50000x128, .f32⟩
  | .hbm, ⟨54, _⟩ => ⟨S500000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S1x500000, .i32⟩
  | .hbm, ⟨59, _⟩ => ⟨S500000, .i32⟩
  | .hbm, ⟨60, _⟩ => ⟨S1x500000, .i32⟩
  | .hbm, ⟨61, _⟩ => ⟨S500000, .i32⟩
  | .hbm, ⟨62, _⟩ => ⟨S50000x64, .bf16⟩
  | .hbm, ⟨63, _⟩ => ⟨S500000x16, .bf16⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x64, .bf16⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x64, .bf16⟩
  | .hbm, ⟨82, _⟩ => ⟨S64x128, .f32⟩
  | .hbm, ⟨83, _⟩ => ⟨S64x128, .f32⟩
  | .hbm, ⟨84, _⟩ => ⟨S16x128, .f32⟩
  | .hbm, ⟨85, _⟩ => ⟨S1x128, .f32⟩
  | .hbm, ⟨86, _⟩ => ⟨S1x128, .f32⟩
  | .hbm, ⟨87, _⟩ => ⟨S500000x128, .bf16⟩
  | .hbm, ⟨88, _⟩ => ⟨S500000x128, .f32⟩
  | .hbm, ⟨89, _⟩ => ⟨S_, .f32⟩
  | .hbm, ⟨90, _⟩ => ⟨S50000x128, .f32⟩
  | .hbm, ⟨91, _⟩ => ⟨S500000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x256, .bf16⟩
  | .hbm, ⟨96, _⟩ => ⟨S1x256, .f32⟩
  | .hbm, ⟨97, _⟩ => ⟨S50000x256, .f32⟩
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S5000x16, .bf16⟩
  | .local _ .vmem, ⟨5, _⟩ => ⟨S5000x16, .bf16⟩
  | .local _ .vmem, ⟨6, _⟩ => ⟨S64x128, .f32⟩
  | .local _ .vmem, ⟨7, _⟩ => ⟨S64x128, .f32⟩
  | .local _ .vmem, ⟨8, _⟩ => ⟨S16x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x64, .bf16⟩
  | .local _ .vmem, ⟨21, _⟩ => ⟨S5000x64, .bf16⟩
  | .local _ .vmem, ⟨22, _⟩ => ⟨S5000x64, .bf16⟩
  | .local _ .vmem, ⟨23, _⟩ => ⟨S5000x64, .bf16⟩
  | .local _ .vmem, ⟨24, _⟩ => ⟨S5000x16, .bf16⟩
  | .local _ .vmem, ⟨25, _⟩ => ⟨S5000x16, .bf16⟩
  | .local _ .vmem, ⟨26, _⟩ => ⟨S64x128, .f32⟩
  | .local _ .vmem, ⟨27, _⟩ => ⟨S64x128, .f32⟩
  | .local _ .vmem, ⟨28, _⟩ => ⟨S16x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S5000x128, .bf16⟩
  | .local _ .vmem, ⟨33, _⟩ => ⟨S5000x128, .bf16⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x256, .bf16⟩
  | .local _ .vmem, ⟨41, _⟩ => ⟨S5000x256, .bf16⟩
  | .local _ .vmem, ⟨42, _⟩ => ⟨S256x256, .f32⟩
  | .local _ .vmem, ⟨43, _⟩ => ⟨S1x256, .f32⟩
  | .local _ .vmem, ⟨44, _⟩ => ⟨S5000x256, .f32⟩
  | .local _ .vmem, ⟨45, _⟩ => ⟨S5000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_1 : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_3 : Ref sig .tc := ⟨.hbm, 64, rfl⟩
abbrev main_v38 : Ref sig .tc := ⟨.hbm, 65, rfl⟩
abbrev main_v39 : Ref sig .tc := ⟨.hbm, 66, rfl⟩
abbrev main_c_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem3_1 : DmaSem sig := 45

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S144x128_S64x128_0_0 : S144x128.Slices ![0, 0] S64x128
  slices_S144x128_S64x128_64_0 : S144x128.Slices ![64, 0] S64x128
  slices_S144x128_S16x128_128_0 : S144x128.Slices ![128, 0] S16x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S5000x128_S5000x128 : S5000x128.ShapeCasts S5000x128
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S50000x64_S500000x1_S500000x64_1_0_n_n_0_1_164_wf : GatherDims.WF S50000x64 S500000x1 S500000x64 [1] [0] [] [0] [] 1 ![1, 64]
  dot_S5000x64_S64x128_S5000x128_1_0_0_1_n_n_wf : DotDims.WF S5000x64 S64x128 S5000x128 [1] [0] [0] [1] [] []
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  scatter_S50000x128_S500000x1_S500000x128_1_0_0_1_wf : ScatterDims.WF S50000x128 S500000x1 S500000x128 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S500000x64.size a
  hwx0_0 : ∀ i : grid0.Coords, EltTy.bits .bf16 = 32 ∨ (Rect.block (s := S500000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S500000x64.size a
  hwx0_1 : ∀ i : grid0.Coords, EltTy.bits .bf16 = 32 ∨ (Rect.block (s := S500000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S500000x16.size a
  hwx0_2 : ∀ i : grid0.Coords, EltTy.bits .bf16 = 32 ∨ (Rect.block (s := S500000x16) S5000x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .bf16 = 32 ∨ (Rect.block (s := S500000x128) S5000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S500000x64.size a
  hwx2_0 : ∀ i : grid2.Coords, EltTy.bits .bf16 = 32 ∨ (Rect.block (s := S500000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S500000x64.size a
  hwx2_1 : ∀ i : grid2.Coords, EltTy.bits .bf16 = 32 ∨ (Rect.block (s := S500000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S500000x16.size a
  hwx2_2 : ∀ i : grid2.Coords, EltTy.bits .bf16 = 32 ∨ (Rect.block (s := S500000x16) S5000x16.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x128.size a ≤ S16x128.size a
  hwx2_5 : ∀ i : grid2.Coords, EltTy.bits .f32 = 32 ∨ (Rect.block (s := S16x128) S16x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S500000x128.size a
  hwx2_9 : ∀ i : grid2.Coords, EltTy.bits .bf16 = 32 ∨ (Rect.block (s := S500000x128) S5000x128.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .bf16 = 32 ∨ (Rect.block (s := S50000x256) S5000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S50000x256.size a
  hwx4_3 : ∀ i : grid4.Coords, EltTy.bits .f32 = 32 ∨ (Rect.block (s := S50000x256) S5000x256.size (cc4_transform_3 i) (hinb4_3 i)).WholeWords (EltTy.packing .f32)

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S16x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v57) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg17) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg19) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x500000 : Shape := ⟨2, ![2, 500000]⟩
abbrev S500000x16 : Shape := ⟨2, ![500000, 16]⟩
abbrev S50000x256 : Shape := ⟨2, ![50000, 256]⟩
abbrev S144x128 : Shape := ⟨2, ![144, 128]⟩
abbrev S128 : Shape := ⟨1, ![128]⟩
abbrev S128x128 : Shape := ⟨2, ![128, 128]⟩
abbrev S256x256 : Shape := ⟨2, ![256, 256]⟩
abbrev S256 : Shape := ⟨1, ![256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x64 : Shape := ⟨2, ![500000, 64]⟩
abbrev S500000x144 : Shape := ⟨2, ![500000, 144]⟩
abbrev S500000x128 : Shape := ⟨2, ![500000, 128]⟩
abbrev S1x128 : Shape := ⟨2, ![1, 128]⟩
abbrev S50000x128 : Shape := ⟨2, ![50000, 128]⟩
abbrev S1x256 : Shape := ⟨2, ![1, 256]⟩

abbrev nBuf : Space → Nat
  | .hbm => 166
  | .vmem => 0
  | .smem => 0
  | _ => 0

abbrev hbmTy0_0 (i : Nat) : BufTy := match i % 128 with
  | 0 => ⟨S50000x64, .f32⟩
  | 1 => ⟨S2x500000, .i32⟩
  | 2 => ⟨S500000x16, .f32⟩
  | 3 => ⟨S50000x64, .f32⟩
  | 4 => ⟨S2x500000, .i32⟩
  | 5 => ⟨S500000x16, .f32⟩
  | 6 => ⟨S50000x256, .f32⟩
  | 7 => ⟨S144x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S144x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S256x256, .f32⟩
  | 20 => ⟨S256, .f32⟩
  | 21 => ⟨S1x500000, .i32⟩
  | 22 => ⟨S500000, .i32⟩
  | 23 => ⟨S1x500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x64, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x64, .f32⟩
  | 43 => ⟨S500000x144, .f32⟩
  | 44 => ⟨S500000x128, .f32⟩
  | 45 => ⟨S1x128, .f32⟩
  | 46 => ⟨S500000x128, .f32⟩
  | 47 => ⟨S500000x128, .f32⟩
  | 48 => ⟨S500000x128, .f32⟩
  | 49 => ⟨S500000x128, .f32⟩
  | 50 => ⟨S_, .f32⟩
  | 51 => ⟨S500000x128, .f32⟩
  | 52 => ⟨S500000x128, .f32⟩
  | 53 => ⟨S_, .f32⟩
  | 54 => ⟨S500000x128, .f32⟩
  | 55 => ⟨S500000x128, .f32⟩
  | 56 => ⟨S500000x128, .f32⟩
  | 57 => ⟨S500000x128, .f32⟩
  | 58 => ⟨S1x128, .f32⟩
  | 59 => ⟨S500000x128, .f32⟩
  | 60 => ⟨S500000x128, .f32⟩
  | 61 => ⟨S500000x128, .f32⟩
  | 62 => ⟨S500000x128, .f32⟩
  | 63 => ⟨S_, .f32⟩
  | 64 => ⟨S500000x128, .f32⟩
  | 65 => ⟨S500000x128, .f32⟩
  | 66 => ⟨S_, .f32⟩
  | 67 => ⟨S500000x128, .f32⟩
  | 68 => ⟨S500000x128, .f32⟩
  | 69 => ⟨S500000x128, .f32⟩
  | 70 => ⟨S500000x128, .f32⟩
  | 71 => ⟨S500000x128, .f32⟩
  | 72 => ⟨S_, .f32⟩
  | 73 => ⟨S500000x128, .f32⟩
  | 74 => ⟨S500000x128, .f32⟩
  | 75 => ⟨S_, .f32⟩
  | 76 => ⟨S500000x128, .f32⟩
  | 77 => ⟨S500000x128, .f32⟩
  | 78 => ⟨S500000x128, .f32⟩
  | 79 => ⟨S_, .f32⟩
  | 80 => ⟨S50000x128, .f32⟩
  | 81 => ⟨S500000x1, .i32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S1x500000, .i32⟩
  | 88 => ⟨S500000, .i32⟩
  | 89 => ⟨S1x500000, .i32⟩
  | 90 => ⟨S500000, .i32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x64, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x64, .f32⟩
  | 109 => ⟨S500000x144, .f32⟩
  | 110 => ⟨S500000x128, .f32⟩
  | 111 => ⟨S1x128, .f32⟩
  | 112 => ⟨S500000x128, .f32⟩
  | 113 => ⟨S500000x128, .f32⟩
  | 114 => ⟨S500000x128, .f32⟩
  | 115 => ⟨S500000x128, .f32⟩
  | 116 => ⟨S_, .f32⟩
  | 117 => ⟨S500000x128, .f32⟩
  | 118 => ⟨S500000x128, .f32⟩
  | 119 => ⟨S_, .f32⟩
  | 120 => ⟨S500000x128, .f32⟩
  | 121 => ⟨S500000x128, .f32⟩
  | 122 => ⟨S500000x128, .f32⟩
  | 123 => ⟨S500000x128, .f32⟩
  | 124 => ⟨S1x128, .f32⟩
  | 125 => ⟨S500000x128, .f32⟩
  | 126 => ⟨S500000x128, .f32⟩
  | 127 => ⟨S500000x128, .f32⟩
  | _ => ⟨S50000x64, .f32⟩

abbrev hbmTy0_1 (i : Nat) : BufTy := match i % 128 with
  | 0 => ⟨S500000x128, .f32⟩
  | 1 => ⟨S_, .f32⟩
  | 2 => ⟨S500000x128, .f32⟩
  | 3 => ⟨S500000x128, .f32⟩
  | 4 => ⟨S_, .f32⟩
  | 5 => ⟨S500000x128, .f32⟩
  | 6 => ⟨S500000x128, .f32⟩
  | 7 => ⟨S500000x128, .f32⟩
  | 8 => ⟨S500000x128, .f32⟩
  | 9 => ⟨S500000x128, .f32⟩
  | 10 => ⟨S_, .f32⟩
  | 11 => ⟨S500000x128, .f32⟩
  | 12 => ⟨S500000x128, .f32⟩
  | 13 => ⟨S_, .f32⟩
  | 14 => ⟨S500000x128, .f32⟩
  | 15 => ⟨S500000x128, .f32⟩
  | 16 => ⟨S500000x128, .f32⟩
  | 17 => ⟨S_, .f32⟩
  | 18 => ⟨S50000x128, .f32⟩
  | 19 => ⟨S500000x1, .i32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x256, .f32⟩
  | 26 => ⟨S1x256, .f32⟩
  | 27 => ⟨S50000x256, .f32⟩
  | 28 => ⟨S50000x256, .f32⟩
  | 29 => ⟨S50000x256, .f32⟩
  | 30 => ⟨S50000x256, .f32⟩
  | 31 => ⟨S_, .f32⟩
  | 32 => ⟨S50000x256, .f32⟩
  | 33 => ⟨S50000x256, .f32⟩
  | 34 => ⟨S_, .f32⟩
  | 35 => ⟨S50000x256, .f32⟩
  | 36 => ⟨S50000x256, .f32⟩
  | 37 => ⟨S50000x256, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v28 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v29 : Ref sig .tc := ⟨.hbm, 78, rfl⟩
abbrev main_cst : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_c_3 : Ref sig .tc := ⟨.hbm, 91, rfl⟩
abbrev main_v41 : Ref sig .tc := ⟨.hbm, 92, rfl⟩
abbrev main_v42 : Ref sig .tc := ⟨.hbm, 93, rfl⟩
abbrev main_c_4 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_5 : Ref sig .tc := ⟨.hbm, 100, rfl⟩
abbrev main_v48 : Ref sig .tc := ⟨.hbm, 101, rfl⟩
abbrev main_v49 : Ref sig .tc := ⟨.hbm, 102, rfl⟩
abbrev main_c_6 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_call3_v0 : Ref sig .tc := ⟨.hbm, 114, rfl⟩
abbrev main_call3_v1 : Ref sig .tc := ⟨.hbm, 115, rfl⟩
abbrev main_call3_cst : Ref sig .tc := ⟨.hbm, 116, rfl⟩
abbrev main_call3_v2 : Ref sig .tc := ⟨.hbm, 117, rfl⟩
abbrev main_call3_v3 : Ref sig .tc := ⟨.hbm, 118, rfl⟩
abbrev main_call3_cst_0 : Ref sig .tc := ⟨.hbm, 119, rfl⟩
abbrev main_call3_v4 : Ref sig .tc := ⟨.hbm, 120, rfl⟩
abbrev main_call3_v5 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v65 : Ref sig .tc := ⟨.hbm, 135, rfl⟩
abbrev main_call5_v0 : Ref sig .tc := ⟨.hbm, 136, rfl⟩
abbrev main_call5_v1 : Ref sig .tc := ⟨.hbm, 137, rfl⟩
abbrev main_call5_cst : Ref sig .tc := ⟨.hbm, 138, rfl⟩
abbrev main_call5_v2 : Ref sig .tc := ⟨.hbm, 139, rfl⟩
abbrev main_call5_v3 : Ref sig .tc := ⟨.hbm, 140, rfl⟩
abbrev main_call5_cst_0 : Ref sig .tc := ⟨.hbm, 141, rfl⟩
abbrev main_call5_v4 : Ref sig .tc := ⟨.hbm, 142, rfl⟩
abbrev main_call5_v5 : Ref sig .tc := ⟨.hbm, 143, rfl⟩
abbrev main_v66 : Ref sig .tc := ⟨.hbm, 144, rfl⟩
abbrev main_cst_7 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_call6_v0 : Ref sig .tc := ⟨.hbm, 157, rfl⟩
abbrev main_call6_v1 : Ref sig .tc := ⟨.hbm, 158, rfl⟩
abbrev main_call6_cst : Ref sig .tc := ⟨.hbm, 159, rfl⟩
abbrev main_call6_v2 : Ref sig .tc := ⟨.hbm, 160, rfl⟩
abbrev main_call6_v3 : Ref sig .tc := ⟨.hbm, 161, rfl⟩
abbrev main_call6_cst_0 : Ref sig .tc := ⟨.hbm, 162, rfl⟩
abbrev main_call6_v4 : Ref sig .tc := ⟨.hbm, 163, rfl⟩
abbrev main_call6_v5 : Ref sig .tc := ⟨.hbm, 164, rfl⟩
abbrev main_v78 : Ref sig .tc := ⟨.hbm, 165, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x16_S500000x144_d1 : Shape.Concatenates [S500000x64, S500000x64, S500000x16] S500000x144 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x64_S500000x1_S500000x64_1_0_n_n_0_1_164_wf : GatherDims.WF S50000x64 S500000x1 S500000x64 [1] [0] [] [0] [] 1 ![1, 64]
  dot_S500000x144_S144x128_S500000x128_1_0_0_1_n_n_wf : DotDims.WF S500000x144 S144x128 S500000x128 [1] [0] [0] [1] [] []
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []
  dot_S50000x256_S256x256_S50000x256_1_0_0_1_n_n_wf : DotDims.WF S50000x256 S256x256 S50000x256 [1] [0] [0] [1] [] []

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x144_S144x128_S500000x128_1_0_0_1_n_n : DotDims S500000x144 S144x128 S500000x128 where
  lhsContracting := [1]
  rhsContracting := [0]
  lhsNonContracting := [0]
  rhsNonContracting := [1]
  lhsBatch := []
  rhsBatch := []
  wf := dot_S500000x144_S144x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The mathematics both programs compute, as functions of arrays over the extended reals.

  One message-passing layer on a graph with 500000 edges and 50000 nodes: an edge's message is a two-layer
  perceptron of the concatenation (features of its target node, features of its source node, its own 16
  attributes), with the activation x ↦ x · σ(x) (σ the logistic function) after the first layer and twice after
  the second; a node's result is an affine map of the sum of the messages arriving at it. The third result is
  an affine map of the cell features followed by the same activation.

  Two spellings are given for each stage. The first (`edgeMsg`, `nodeLin`, `cellEmb`) takes the first layer's
  144×128 weight matrix whole and the biases as vectors. The second (`edgeMsgK`, `nodeLinK`, `cellEmbK`) takes the
  weight matrix as its three row blocks (rows 0–63, 64–127, 128–143) and each bias as a one-row matrix: a product
  with the concatenation is the sum of the three block products. `edgeMsgK_blocks` etc. join the two.
-/
import Idealize.ShloMosaic.PureOps.Ideal
import Idealize.ShloMosaic.Lib.ValueIdx

noncomputable section

namespace Cert.Spec

open Idealize.ShloMosaic Idealize.ShloMosaic.ValueIdx

/-- A matrix / a vector of extended reals of literal extents. -/
abbrev Arr2 (a b : Nat) : Type := (⟨2, ![a, b]⟩ : Shape).Idx → EReal
abbrev Arr1 (a : Nat) : Type := (⟨1, ![a]⟩ : Shape).Idx → EReal

/-- The activation x · σ(x), σ(x) = 1 / (1 + e^(-x)), on every extended real. -/
def silu (x : EReal) : EReal := x * Ideal.logistic x

/-! ## Whole-matrix spelling -/

/-- The first layer's output at edge `e`, unit `j`: the concatenated row (target features, source features, edge
    attributes) times column `j` of the 144-row matrix, written as its three partial sums, plus the bias, activated. -/
def hiddenAt (gd gs : Arr2 500000 64) (ea : Arr2 500000 16) (w1 : Arr2 144 128) (b1 : Arr1 128)
    (e : Fin 500000) (j : Fin 128) : EReal :=
  silu (((∑ k : Fin 64, gd (ix2 e k) * w1 (ix2 (⟨k.val, by omega⟩ : Fin 144) j)
        + ∑ k : Fin 64, gs (ix2 e k) * w1 (ix2 (⟨64 + k.val, by omega⟩ : Fin 144) j))
        + ∑ k : Fin 16, ea (ix2 e k) * w1 (ix2 (⟨128 + k.val, by omega⟩ : Fin 144) j))
        + b1 (ix1 j))

/-- The message of edge `e`, unit `j`: the second layer on the hidden row, activated twice. -/
def edgeMsgAt (gd gs : Arr2 500000 64) (ea : Arr2 500000 16) (w1 : Arr2 144 128) (b1 : Arr1 128)
    (w2 : Arr2 128 128) (b2 : Arr1 128) (e : Fin 500000) (j : Fin 128) : EReal :=
  silu (silu ((∑ k : Fin 128, hiddenAt gd gs ea w1 b1 e k * w2 (ix2 k j)) + b2 (ix1 j)))

def edgeMsg (gd gs : Arr2 500000 64) (ea : Arr2 500000 16) (w1 : Arr2 144 128) (b1 : Arr1 128)
    (w2 : Arr2 128 128) (b2 : Arr1 128) : Arr2 500000 128 :=
  fun i => edgeMsgAt gd gs ea w1 b1 w2 b2 (i 0) (i 1)

/-- The node update: row `n` of the aggregate times column `j`, plus the bias. -/
def nodeLinAt (x : Arr2 50000 128) (w : Arr2 128 128) (b : Arr1 128) (n : Fin 50000) (j : Fin 128) : EReal :=
  (∑ k : Fin 128, x (ix2 n k) * w (ix2 k j)) + b (ix1 j)

def nodeLin (x : Arr2 50000 128) (w : Arr2 128 128) (b : Arr1 128) : Arr2 50000 128 :=
  fun i => nodeLinAt x w b (i 0) (i 1)

/-- The cell embedding: row `n` of the cell features times column `j`, plus the bias, activated. -/
def cellEmbAt (x : Arr2 50000 256) (w : Arr2 256 256) (b : Arr1 256) (n : Fin 50000) (j : Fin 256) : EReal :=
  silu ((∑ k : Fin 256, x (ix2 n k) * w (ix2 k j)) + b (ix1 j))

def cellEmb (x : Arr2 50000 256) (w : Arr2 256 256) (b : Arr1 256) : Arr2 50000 256 :=
  fun i => cellEmbAt x w b (i 0) (i 1)

/-! ## Row-block spelling -/

def hiddenKAt (gd gs : Arr2 500000 64) (ea : Arr2 500000 16) (wa wb : Arr2 64 128) (wc : Arr2 16 128) (b1r : Arr2 1 128)
    (e : Fin 500000) (j : Fin 128) : EReal :=
  silu (((∑ k : Fin 64, gd (ix2 e k) * wa (ix2 k j)
        + ∑ k : Fin 64, gs (ix2 e k) * wb (ix2 k j))
        + ∑ k : Fin 16, ea (ix2 e k) * wc (ix2 k j))
        + b1r (ix2 (0 : Fin 1) j))

def edgeMsgKAt (gd gs : Arr2 500000 64) (ea : Arr2 500000 16) (wa wb : Arr2 64 128) (wc : Arr2 16 128) (b1r : Arr2 1 128)
    (w2 : Arr2 128 128) (b2r : Arr2 1 128) (e : Fin 500000) (j : Fin 128) : EReal :=
  silu (silu ((∑ k : Fin 128, hiddenKAt gd gs ea wa wb wc b1r e k * w2 (ix2 k j)) + b2r (ix2 (0 : Fin 1) j)))

def edgeMsgK (gd gs : Arr2 500000 64) (ea : Arr2 500000 16) (wa wb : Arr2 64 128) (wc : Arr2 16 128) (b1r : Arr2 1 128)
    (w2 : Arr2 128 128) (b2r : Arr2 1 128) : Arr2 500000 128 :=
  fun i => edgeMsgKAt gd gs ea wa wb wc b1r w2 b2r (i 0) (i 1)

def nodeLinKAt (x : Arr2 50000 128) (w : Arr2 128 128) (br : Arr2 1 128) (n : Fin 50000) (j : Fin 128) : EReal :=
  (∑ k : Fin 128, x (ix2 n k) * w (ix2 k j)) + br (ix2 (0 : Fin 1) j)

def nodeLinK (x : Arr2 50000 128) (w : Arr2 128 128) (br : Arr2 1 128) : Arr2 50000 128 :=
  fun i => nodeLinKAt x w br (i 0) (i 1)

def cellEmbKAt (x : Arr2 50000 256) (w : Arr2 256 256) (br : Arr2 1 256) (n : Fin 50000) (j : Fin 256) : EReal :=
  silu ((∑ k : Fin 256, x (ix2 n k) * w (ix2 k j)) + br (ix2 (0 : Fin 1) j))

def cellEmbK (x : Arr2 50000 256) (w : Arr2 256 256) (br : Arr2 1 256) : Arr2 50000 256 :=
  fun i => cellEmbKAt x w br (i 0) (i 1)

/-! ## The two spellings agree when the blocks are the matrix's rows and the one-row matrices the vectors -/

theorem edgeMsgK_blocks (gd gs : Arr2 500000 64) (ea : Arr2 500000 16) (w1 : Arr2 144 128) (b1 : Arr1 128)
    (w2 : Arr2 128 128) (b2 : Arr1 128) (wa wb : Arr2 64 128) (wc : Arr2 16 128) (b1r b2r : Arr2 1 128)
    (ha : ∀ (k : Fin 64) (j : Fin 128), wa (ix2 k j) = w1 (ix2 (⟨k.val, by omega⟩ : Fin 144) j))
    (hb : ∀ (k : Fin 64) (j : Fin 128), wb (ix2 k j) = w1 (ix2 (⟨64 + k.val, by omega⟩ : Fin 144) j))
    (hc : ∀ (k : Fin 16) (j : Fin 128), wc (ix2 k j) = w1 (ix2 (⟨128 + k.val, by omega⟩ : Fin 144) j))
    (h1 : ∀ j : Fin 128, b1r (ix2 (0 : Fin 1) j) = b1 (ix1 j))
    (h2 : ∀ j : Fin 128, b2r (ix2 (0 : Fin 1) j) = b2 (ix1 j)) :
    edgeMsgK gd gs ea wa wb wc b1r w2 b2r = edgeMsg gd gs ea w1 b1 w2 b2 := by
  funext i
  obtain ⟨p, q, rfl⟩ : ∃ (p : Fin 500000) (q : Fin 128), i = ix2 p q := ⟨i 0, i 1, eq_ix2 i⟩
  show edgeMsgKAt gd gs ea wa wb wc b1r w2 b2r p q = edgeMsgAt gd gs ea w1 b1 w2 b2 p q
  simp only [edgeMsgKAt, edgeMsgAt, hiddenKAt, hiddenAt, ha, hb, hc, h1, h2]

theorem nodeLinK_row (x : Arr2 50000 128) (w : Arr2 128 128) (b : Arr1 128) (br : Arr2 1 128)
    (h : ∀ j : Fin 128, br (ix2 (0 : Fin 1) j) = b (ix1 j)) : nodeLinK x w br = nodeLin x w b := by
  funext i
  obtain ⟨p, q, rfl⟩ : ∃ (p : Fin 50000) (q : Fin 128), i = ix2 p q := ⟨i 0, i 1, eq_ix2 i⟩
  show nodeLinKAt x w br p q = nodeLinAt x w b p q
  simp only [nodeLinKAt, nodeLinAt, h]

theorem cellEmbK_row (x : Arr2 50000 256) (w : Arr2 256 256) (b : Arr1 256) (br : Arr2 1 256)
    (h : ∀ j : Fin 256, br (ix2 (0 : Fin 1) j) = b (ix1 j)) : cellEmbK x w br = cellEmb x w b := by
  funext i
  obtain ⟨p, q, rfl⟩ : ∃ (p : Fin 50000) (q : Fin 256), i = ix2 p q := ⟨i 0, i 1, eq_ix2 i⟩
  show cellEmbKAt x w br p q = cellEmbAt x w b p q
  simp only [cellEmbKAt, cellEmbAt, h]

end Cert.Spec

end
-- ==== Proof.Results.lean ====
/-
  The three results as functions of the argument arrays: the specification's stages composed with the host's
  gathers (along the edge list's two rows, made non-negative) and its scatter-add of the messages into their target
  nodes. The gathers, the index vectors and the scatter-add are the reference program's own stage functions, taken
  as they are: both programs apply the same ones.
-/
import proofs.«138426_j17171279250040_2_alg».proof.Proof.Gen.ReferenceIdeal.Read
import proofs.«138426_j17171279250040_2_alg».proof.Proof.Spec

noncomputable section

namespace Cert.Results

open Idealize.ShloMosaic Cert.Spec

/-- The first graph's node update. -/
def resH0 (x0 : (⟨Cert.ReferenceIdeal.S50000x64, .f32⟩ : BufTy).Contents (Elt Ideal)) (x1 : (⟨Cert.ReferenceIdeal.S2x500000, .i32⟩ : BufTy).Contents (Elt Ideal)) (x2 : (⟨Cert.ReferenceIdeal.S500000x16, .f32⟩ : BufTy).Contents (Elt Ideal))
    (x7 : (⟨Cert.ReferenceIdeal.S144x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal))
    (x11 : (⟨Cert.ReferenceIdeal.S128x128, .f32⟩ : BufTy).Contents (Elt Ideal)) (x12 : (⟨Cert.ReferenceIdeal.S128, .f32⟩ : BufTy).Contents (Elt Ideal)) : Arr2 50000 128 :=
  nodeLin (Host.scatterAdd (F := Ideal) (φ := .f32) Cert.ReferenceIdeal.scatter_S50000x128_S500000x1_S500000x128_1_0_0_1 (Cert.ReferenceIdeal.Read.val_main_v30 (F := Ideal))
      (Cert.ReferenceIdeal.Read.val_main_v31 (F := Ideal) x1)
      (edgeMsg (Cert.ReferenceIdeal.Read.val_main_v10 (F := Ideal) x0 x1) (Cert.ReferenceIdeal.Read.val_main_v17 (F := Ideal) x0 x1) x2 x7 x8 x9 x10))
    x11 x12

/-- The second graph's node update. -/
def resH1 (x3 : (⟨Cert.ReferenceIdeal.S50000x64, .f32⟩ : BufTy).Contents (Elt Ideal)) (x4 : (⟨Cert.ReferenceIdeal.S2x500000, .i32⟩ : BufTy).Contents (Elt Ideal)) (x5 : (⟨Cert.ReferenceIdeal.S500000x16, .f32⟩ : BufTy).Contents (Elt Ideal))
    (x13 : (⟨Cert.ReferenceIdeal.S144x128, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal))
    (x17 : (⟨Cert.ReferenceIdeal.S128x128, .f32⟩ : BufTy).Contents (Elt Ideal)) (x18 : (⟨Cert.ReferenceIdeal.S128, .f32⟩ : BufTy).Contents (Elt Ideal)) : Arr2 50000 128 :=
  nodeLin (Host.scatterAdd (F := Ideal) (φ := .f32) Cert.ReferenceIdeal.scatter_S50000x128_S500000x1_S500000x128_1_0_0_1 (Cert.ReferenceIdeal.Read.val_main_v67 (F := Ideal))
      (Cert.ReferenceIdeal.Read.val_main_v68 (F := Ideal) x4)
      (edgeMsg (Cert.ReferenceIdeal.Read.val_main_v47 (F := Ideal) x3 x4) (Cert.ReferenceIdeal.Read.val_main_v54 (F := Ideal) x3 x4) x5 x13 x14 x15 x16))
    x17 x18

/-- The cell embedding. -/
def resC (x6 : (⟨Cert.ReferenceIdeal.S50000x256, .f32⟩ : BufTy).Contents (Elt Ideal)) (x19 : (⟨Cert.ReferenceIdeal.S256x256, .f32⟩ : BufTy).Contents (Elt Ideal)) (x20 : (⟨Cert.ReferenceIdeal.S256, .f32⟩ : BufTy).Contents (Elt Ideal)) : Arr2 50000 256 :=
  cellEmb x6 x19 x20

end Cert.Results

end
-- ==== Proof.KernelRun.lean ====
/-
  The idealized kernel program's run with every unscoped buffer NAMED at the end.

  The program is five kernel regions among stretches of host operations. Its run is the launch over those segments:
  each core's buffer contents at the return are the last boundary's contents `Gen.W10 m ρ c` — the fold of the host
  stretches' operations and the regions' write-backs over the launch memory. Stated here for every unscoped buffer at
  once; the three results and the arguments are read off it.
-/
import proofs.«138426_j17171279250040_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each unscoped
    buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.KRun

end
-- ==== Proof.KernelKeep.lean ====
/-
  Which buffers the segments of the idealized kernel program leave alone.

  Each host stretch writes only its own results and each kernel region only its output array, so an argument array
  read at any segment boundary is still the launch memory's, and a region's output, once written, is what the later
  boundaries hold. One equation per (boundary, buffer) pair that the value proof uses.
-/
import proofs.«138426_j17171279250040_2_alg».proof.Proof.Gen.KernelIdeal.Frame

set_option maxRecDepth 16384

noncomputable section

namespace Cert.KernelIdeal.KKeep

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Arguments at the boundaries where a later segment reads them -/

theorem W2_arg11 (c : Dev nD) : W2 m ρ c (Proc.devRef .tc main_arg11) = m ((c : Thread nD τ).loc main_arg11) :=
  ((W2_of_ne m ρ c main_arg11 (by decide))).trans
    (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg12 (c : Dev nD) : W2 m ρ c (Proc.devRef .tc main_arg12) = m ((c : Thread nD τ).loc main_arg12) :=
  ((W2_of_ne m ρ c main_arg12 (by decide))).trans
    (StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_arg3 (c : Dev nD) : W4 m ρ c (Proc.devRef .tc main_arg3) = m ((c : Thread nD τ).loc main_arg3) :=
  ((((W4_of_ne m ρ c main_arg3 (by decide))).trans
    (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg3 (by decide))).trans
    (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_arg4 (c : Dev nD) : W4 m ρ c (Proc.devRef .tc main_arg4) = m ((c : Thread nD τ).loc main_arg4) :=
  ((((W4_of_ne m ρ c main_arg4 (by decide))).trans
    (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg4 (by decide))).trans
    (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_arg5 (c : Dev nD) : W4 m ρ c (Proc.devRef .tc main_arg5) = m ((c : Thread nD τ).loc main_arg5) :=
  ((((W4_of_ne m ρ c main_arg5 (by decide))).trans
    (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg5 (by decide))).trans
    (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_arg13 (c : Dev nD) : W4 m ρ c (Proc.devRef .tc main_arg13) = m ((c : Thread nD τ).loc main_arg13) :=
  ((((W4_of_ne m ρ c main_arg13 (by decide))).trans
    (StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg13 (by decide))).trans
    (StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_arg14 (c : Dev nD) : W4 m ρ c (Proc.devRef .tc main_arg14) = m ((c : Thread nD τ).loc main_arg14) :=
  ((((W4_of_ne m ρ c main_arg14 (by decide))).trans
    (StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg14 (by decide))).trans
    (StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_arg15 (c : Dev nD) : W4 m ρ c (Proc.devRef .tc main_arg15) = m ((c : Thread nD τ).loc main_arg15) :=
  ((((W4_of_ne m ρ c main_arg15 (by decide))).trans
    (StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg15 (by decide))).trans
    (StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_arg16 (c : Dev nD) : W4 m ρ c (Proc.devRef .tc main_arg16) = m ((c : Thread nD τ).loc main_arg16) :=
  ((((W4_of_ne m ρ c main_arg16 (by decide))).trans
    (StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg16 (by decide))).trans
    (StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W6_arg17 (c : Dev nD) : W6 m ρ c (Proc.devRef .tc main_arg17) = m ((c : Thread nD τ).loc main_arg17) :=
  ((((((W6_of_ne m ρ c main_arg17 (by decide))).trans
    (StableHlo.after_of_forall_not_mem (b := Proc.devRef .tc main_arg17) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W4_of_ne m ρ c main_arg17 (by decide))).trans
    (StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg17 (by decide))).trans
    (StableHlo.after_of_forall_not_mem (b := Proc.devRef .tc main_arg17) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W6_arg18 (c : Dev nD) : W6 m ρ c (Proc.devRef .tc main_arg18) = m ((c : Thread nD τ).loc main_arg18) :=
  ((((((W6_of_ne m ρ c main_arg18 (by decide))).trans
    (StableHlo.after_of_forall_not_mem (b := Proc.devRef .tc main_arg18) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W4_of_ne m ρ c main_arg18 (by decide))).trans
    (StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg18 (by decide))).trans
    (StableHlo.after_of_forall_not_mem (b := Proc.devRef .tc main_arg18) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W8_arg6 (c : Dev nD) : W8 m ρ c (Proc.devRef .tc main_arg6) = m ((c : Thread nD τ).loc main_arg6) :=
  ((((((((W8_of_ne m ρ c main_arg6 (by decide))).trans
    (StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W6_of_ne m ρ c main_arg6 (by decide))).trans
    (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W4_of_ne m ρ c main_arg6 (by decide))).trans
    (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg6 (by decide))).trans
    (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W8_arg19 (c : Dev nD) : W8 m ρ c (Proc.devRef .tc main_arg19) = m ((c : Thread nD τ).loc main_arg19) :=
  ((((((((W8_of_ne m ρ c main_arg19 (by decide))).trans
    (StableHlo.after_of_forall_not_mem (b := Proc.devRef .tc main_arg19) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W6_of_ne m ρ c main_arg19 (by decide))).trans
    (StableHlo.after_of_forall_not_mem (b := Proc.devRef .tc main_arg19) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W4_of_ne m ρ c main_arg19 (by decide))).trans
    (StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg19 (by decide))).trans
    (StableHlo.after_of_forall_not_mem (b := Proc.devRef .tc main_arg19) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W8_arg20 (c : Dev nD) : W8 m ρ c (Proc.devRef .tc main_arg20) = m ((c : Thread nD τ).loc main_arg20) :=
  ((((((((W8_of_ne m ρ c main_arg20 (by decide))).trans
    (StableHlo.after_of_forall_not_mem (b := Proc.devRef .tc main_arg20) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W6_of_ne m ρ c main_arg20 (by decide))).trans
    (StableHlo.after_of_forall_not_mem (b := Proc.devRef .tc main_arg20) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W4_of_ne m ρ c main_arg20 (by decide))).trans
    (StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W2_of_ne m ρ c main_arg20 (by decide))).trans
    (StableHlo.after_of_forall_not_mem (b := Proc.devRef .tc main_arg20) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The target-node index vectors, computed by a host stretch, read again after the region that follows it -/

theorem W2_v3 (c : Dev nD) : W2 m ρ c (Proc.devRef .tc main_v3) = W1 m ρ c (Proc.devRef .tc main_v3) :=
  (W2_of_ne m ρ c main_v3 (by decide))

theorem W6_v35 (c : Dev nD) : W6 m ρ c (Proc.devRef .tc main_v35) = W5 m ρ c (Proc.devRef .tc main_v35) :=
  (W6_of_ne m ρ c main_v35 (by decide))

/-! ## The results, from the boundary after their region to the return -/

theorem W10_v31 (c : Dev nD) : W10 m ρ c (Proc.devRef .tc main_v31) = W4 m ρ c (Proc.devRef .tc main_v31) :=
  ((((((W10_of_ne m ρ c main_v31 (by decide))).trans
    (StableHlo.after_of_forall_not_mem (b := Proc.devRef .tc main_v31) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W8_of_ne m ρ c main_v31 (by decide))).trans
    (StableHlo.after_of_forall_not_mem (b := Proc.devRef .tc main_v31) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
    (W6_of_ne m ρ c main_v31 (by decide))).trans
    (StableHlo.after_of_forall_not_mem (b := Proc.devRef .tc main_v31) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W10_v63 (c : Dev nD) : W10 m ρ c (Proc.devRef .tc main_v63) = W8 m ρ c (Proc.devRef .tc main_v63) :=
  ((W10_of_ne m ρ c main_v63 (by decide))).trans
    (StableHlo.after_of_forall_not_mem (b := Proc.devRef .tc main_v63) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.KKeep

end
-- ==== Proof.KernelStages.lean ====
/-
  What each kernel region of the idealized kernel program finds in its windows' arrays.

  Before every region a stretch of host operations prepares the region's operands from the arguments: the two rows of
  an edge list picked out and made non-negative, the node features gathered along them, the first weight matrix cut
  into its three row blocks, each bias vector laid out as a one-row matrix, the messages scattered and added into the
  nodes. The host operations that compute the gathered rows and the index vectors are the reference program's own,
  so those arrays are named by the reference's stage functions; a change of float format is the identity on the
  extended reals. Also: a row block of a matrix and a vector laid out as a row, read at an index.
-/
import proofs.«138426_j17171279250040_2_alg».proof.Proof.Gen.KernelIdeal.Frame
import proofs.«138426_j17171279250040_2_alg».proof.Proof.Gen.ReferenceIdeal.Read
import proofs.«138426_j17171279250040_2_alg».proof.Proof.KernelKeep
import proofs.«138426_j17171279250040_2_alg».proof.Proof.Spec
import Idealize.ShloMosaic.Lib.Pipeline.Value
import Idealize.ShloMosaic.Lib.ValueIdx

set_option maxRecDepth 16384

noncomputable section

namespace Cert.KernelIdeal.KStage

open Idealize.ShloMosaic Idealize.ShloMosaic.TcCoe Idealize.SL.Sem Idealize.ShloMosaic.StableHlo
open Cert.KernelIdeal Cert.KernelIdeal.Gen

open Idealize.ShloMosaic.ValueIdx Cert.Spec Cert.KernelIdeal.KKeep

/-! ## Layout operations at an index -/

/-- Rows `o … o + a - 1` of a matrix, all columns: entry (k, j) of the block is entry (o + k, j) of the matrix. -/
theorem rowBlock_apply {n a b o : Nat} (w : (⟨2, ![n, b]⟩ : Shape).Idx → EReal)
    (h : (⟨2, ![n, b]⟩ : Shape).Slices ![o, 0] ⟨2, ![a, b]⟩) (k : Fin a) (j : Fin b) (k' : Fin n) (hk : k'.val = o + k.val) :
    extractStridedSlice (⟨2, ![a, b]⟩ : Shape) ![o, 0] w h (ix2 k j) = w (ix2 k' j) :=
  extractStridedSlice_apply _ w h (ix2 k j) (ix2 k' j) (fun ax => match ax with
    | ⟨0, _⟩ => hk
    | ⟨1, _⟩ => by show j.val = 0 + j.val; omega)

/-- A vector laid out as a one-row matrix: entry (0, j) is the vector's entry j. -/
theorem asRow_apply {b : Nat} (v : (⟨1, ![b]⟩ : Shape).Idx → EReal)
    (h : (⟨1, ![b]⟩ : Shape).ShapeCasts ⟨2, ![1, b]⟩) (j : Fin b) :
    shapeCast (⟨2, ![1, b]⟩ : Shape) v h (ix2 (0 : Fin 1) j) = v (ix1 j) :=
  (shapeCast_addUnit_apply ![b] v h (ix2 (0 : Fin 1) j)).trans
    (congrArg v (funext fun ax => match ax with | ⟨0, _⟩ => rfl))

variable (m : (ℓ : Loc nD τ sig) → Buf (Elt Ideal) ℓ) (ρ : Dev nD → PrngReg)

/-! ## Before region 0: the first graph's operands -/

set_option maxHeartbeats 4000000 in
theorem V1_v12 (c : Dev nD) : @Eq (Arr2 500000 64) (V1 m ρ c main_v12)
    (Cert.ReferenceIdeal.Read.val_main_v10 (F := Ideal) (m ((c : Thread nD τ).loc main_arg0)) (m ((c : Thread nD τ).loc main_arg1))) := by
  show StableHlo.after hostOps0 (W0 m ρ c) (Proc.devRef .tc main_v12) = _
  after_results_simp
  all_goals rfl

set_option maxHeartbeats 4000000 in
theorem V1_v19 (c : Dev nD) : @Eq (Arr2 500000 64) (V1 m ρ c main_v19)
    (Cert.ReferenceIdeal.Read.val_main_v17 (F := Ideal) (m ((c : Thread nD τ).loc main_arg0)) (m ((c : Thread nD τ).loc main_arg1))) := by
  show StableHlo.after hostOps0 (W0 m ρ c) (Proc.devRef .tc main_v19) = _
  after_results_simp
  all_goals rfl

set_option maxHeartbeats 4000000 in
theorem V1_v5 (c : Dev nD) : @Eq (Arr2 500000 16) (V1 m ρ c main_v5)
    ((m ((c : Thread nD τ).loc main_arg2))) := by
  show StableHlo.after hostOps0 (W0 m ρ c) (Proc.devRef .tc main_v5) = _
  after_results_simp
  all_goals rfl

set_option maxHeartbeats 4000000 in
theorem V1_v20 (c : Dev nD) : @Eq (Arr2 64 128) (V1 m ρ c main_v20)
    (extractStridedSlice S64x128 ![0, 0] (m ((c : Thread nD τ).loc main_arg7)) slices_S144x128_S64x128_0_0) := by
  show StableHlo.after hostOps0 (W0 m ρ c) (Proc.devRef .tc main_v20) = _
  after_results_simp
  all_goals rfl

set_option maxHeartbeats 4000000 in
theorem V1_v21 (c : Dev nD) : @Eq (Arr2 64 128) (V1 m ρ c main_v21)
    (extractStridedSlice S64x128 ![64, 0] (m ((c : Thread nD τ).loc main_arg7)) slices_S144x128_S64x128_64_0) := by
  show StableHlo.after hostOps0 (W0 m ρ c) (Proc.devRef .tc main_v21) = _
  after_results_simp
  all_goals rfl

set_option maxHeartbeats 4000000 in
theorem V1_v22 (c : Dev nD) : @Eq (Arr2 16 128) (V1 m ρ c main_v22)
    (extractStridedSlice S16x128 ![128, 0] (m ((c : Thread nD τ).loc main_arg7)) slices_S144x128_S16x128_128_0) := by
  show StableHlo.after hostOps0 (W0 m ρ c) (Proc.devRef .tc main_v22) = _
  after_results_simp
  all_goals rfl

set_option maxHeartbeats 4000000 in
theorem V1_v23 (c : Dev nD) : @Eq (Arr2 1 128) (V1 m ρ c main_v23)
    (shapeCast S1x128 (m ((c : Thread nD τ).loc main_arg8)) shapeCasts_S128_S1x128) := by
  show StableHlo.after hostOps0 (W0 m ρ c) (Proc.devRef .tc main_v23) = _
  after_results_simp
  all_goals rfl

set_option maxHeartbeats 4000000 in
theorem V1_arg9 (c : Dev nD) : @Eq (Arr2 128 128) (V1 m ρ c main_arg9)
    ((m ((c : Thread nD τ).loc main_arg9))) := by
  show StableHlo.after hostOps0 (W0 m ρ c) (Proc.devRef .tc main_arg9) = _
  after_results_simp
  all_goals rfl

set_option maxHeartbeats 4000000 in
theorem V1_v24 (c : Dev nD) : @Eq (Arr2 1 128) (V1 m ρ c main_v24)
    (shapeCast S1x128 (m ((c : Thread nD τ).loc main_arg10)) shapeCasts_S128_S1x128) := by
  show StableHlo.after hostOps0 (W0 m ρ c) (Proc.devRef .tc main_v24) = _
  after_results_simp
  all_goals rfl

set_option maxHeartbeats 4000000 in
/-- The first graph's target-node vector, as the reference computes it. -/
theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  all_goals rfl

/-! ## Before region 1: the messages added into their target nodes -/

set_option maxHeartbeats 4000000 in
theorem V3_v29 (c : Dev nD) (E : Arr2 500000 128) (hE : W2 m ρ c (Proc.devRef .tc main_v25) = E) : @Eq (Arr2 50000 128) (V3 m ρ c main_v29)
    (Host.scatterAdd (F := Ideal) (φ := .f32) Cert.ReferenceIdeal.scatter_S50000x128_S500000x1_S500000x128_1_0_0_1 (Cert.ReferenceIdeal.Read.val_main_v30 (F := Ideal)) (Cert.ReferenceIdeal.Read.val_main_v31 (F := Ideal) (m ((c : Thread nD τ).loc main_arg1))) E) := by
  subst hE
  show StableHlo.after hostOps1 (W2 m ρ c) (Proc.devRef .tc main_v29) = _
  after_results_simp
  rw [W2_v3, W1_v3]
  all_goals rfl

set_option maxHeartbeats 4000000 in
theorem V3_arg11 (c : Dev nD) : @Eq (Arr2 128 128) (V3 m ρ c main_arg11)
    ((m ((c : Thread nD τ).loc main_arg11))) := by
  show StableHlo.after hostOps1 (W2 m ρ c) (Proc.devRef .tc main_arg11) = _
  after_results_simp
  rw [W2_arg11]
  all_goals rfl

set_option maxHeartbeats 4000000 in
theorem V3_v30 (c : Dev nD) : @Eq (Arr2 1 128) (V3 m ρ c main_v30)
    (shapeCast S1x128 (m ((c : Thread nD τ).loc main_arg12)) shapeCasts_S128_S1x128) := by
  show StableHlo.after hostOps1 (W2 m ρ c) (Proc.devRef .tc main_v30) = _
  after_results_simp
  rw [W2_arg12]
  all_goals rfl

/-! ## Before region 2: the second graph's operands -/

set_option maxHeartbeats 4000000 in
theorem V5_v44 (c : Dev nD) : @Eq (Arr2 500000 64) (V5 m ρ c main_v44)
    (Cert.ReferenceIdeal.Read.val_main_v47 (F := Ideal) (m ((c : Thread nD τ).loc main_arg3)) (m ((c : Thread nD τ).loc main_arg4))) := by
  show StableHlo.after hostOps2 (W4 m ρ c) (Proc.devRef .tc main_v44) = _
  after_results_simp
  rw [W4_arg3, W4_arg4]
  all_goals rfl

set_option maxHeartbeats 4000000 in
theorem V5_v51 (c : Dev nD) : @Eq (Arr2 500000 64) (V5 m ρ c main_v51)
    (Cert.ReferenceIdeal.Read.val_main_v54 (F := Ideal) (m ((c : Thread nD τ).loc main_arg3)) (m ((c : Thread nD τ).loc main_arg4))) := by
  show StableHlo.after hostOps2 (W4 m ρ c) (Proc.devRef .tc main_v51) = _
  after_results_simp
  rw [W4_arg3, W4_arg4]
  all_goals rfl

set_option maxHeartbeats 4000000 in
theorem V5_v37 (c : Dev nD) : @Eq (Arr2 500000 16) (V5 m ρ c main_v37)
    ((m ((c : Thread nD τ).loc main_arg5))) := by
  show StableHlo.after hostOps2 (W4 m ρ c) (Proc.devRef .tc main_v37) = _
  after_results_simp
  rw [W4_arg5]
  all_goals rfl

set_option maxHeartbeats 4000000 in
theorem V5_v52 (c : Dev nD) : @Eq (Arr2 64 128) (V5 m ρ c main_v52)
    (extractStridedSlice S64x128 ![0, 0] (m ((c : Thread nD τ).loc main_arg13)) slices_S144x128_S64x128_0_0) := by
  show StableHlo.after hostOps2 (W4 m ρ c) (Proc.devRef .tc main_v52) = _
  after_results_simp
  rw [W4_arg13]
  all_goals rfl

set_option maxHeartbeats 4000000 in
theorem V5_v53 (c : Dev nD) : @Eq (Arr2 64 128) (V5 m ρ c main_v53)
    (extractStridedSlice S64x128 ![64, 0] (m ((c : Thread nD τ).loc main_arg13)) slices_S144x128_S64x128_64_0) := by
  show StableHlo.after hostOps2 (W4 m ρ c) (Proc.devRef .tc main_v53) = _
  after_results_simp
  rw [W4_arg13]
  all_goals rfl

set_option maxHeartbeats 4000000 in
theorem V5_v54 (c : Dev nD) : @Eq (Arr2 16 128) (V5 m ρ c main_v54)
    (extractStridedSlice S16x128 ![128, 0] (m ((c : Thread nD τ).loc main_arg13)) slices_S144x128_S16x128_128_0) := by
  show StableHlo.after hostOps2 (W4 m ρ c) (Proc.devRef .tc main_v54) = _
  after_results_simp
  rw [W4_arg13]
  all_goals rfl

set_option maxHeartbeats 4000000 in
theorem V5_v55 (c : Dev nD) : @Eq (Arr2 1 128) (V5 m ρ c main_v55)
    (shapeCast S1x128 (m ((c : Thread nD τ).loc main_arg14)) shapeCasts_S128_S1x128) := by
  show StableHlo.after hostOps2 (W4 m ρ c) (Proc.devRef .tc main_v55) = _
  after_results_simp
  rw [W4_arg14]
  all_goals rfl

set_option maxHeartbeats 4000000 in
theorem V5_arg15 (c : Dev nD) : @Eq (Arr2 128 128) (V5 m ρ c main_arg15)
    ((m ((c : Thread nD τ).loc main_arg15))) := by
  show StableHlo.after hostOps2 (W4 m ρ c) (Proc.devRef .tc main_arg15) = _
  after_results_simp
  rw [W4_arg15]
  all_goals rfl

set_option maxHeartbeats 4000000 in
theorem V5_v56 (c : Dev nD) : @Eq (Arr2 1 128) (V5 m ρ c main_v56)
    (shapeCast S1x128 (m ((c : Thread nD τ).loc main_arg16)) shapeCasts_S128_S1x128) := by
  show StableHlo.after hostOps2 (W4 m ρ c) (Proc.devRef .tc main_v56) = _
  after_results_simp
  rw [W4_arg16]
  all_goals rfl

set_option maxHeartbeats 4000000 in
/-- The second graph's target-node vector, as the reference computes it. -/
theorem W5_v35 (c : Dev nD) : W5 m ρ c (Proc.devRef .tc main_v35) = Cert.ReferenceIdeal.Read.val_main_v40 (F := Ideal) (m ((c : Thread nD τ).loc main_arg4)) := by
  show StableHlo.after hostOps2 (W4 m ρ c) (Proc.devRef .tc main_v35) = _
  after_results_simp
  rw [W4_arg4]
  all_goals rfl

/-! ## Before region 3 -/

set_option maxHeartbeats 4000000 in
theorem V7_v61 (c : Dev nD) (E : Arr2 500000 128) (hE : W6 m ρ c (Proc.devRef .tc main_v57) = E) : @Eq (Arr2 50000 128) (V7 m ρ c main_v61)
    (Host.scatterAdd (F := Ideal) (φ := .f32) Cert.ReferenceIdeal.scatter_S50000x128_S500000x1_S500000x128_1_0_0_1 (Cert.ReferenceIdeal.Read.val_main_v67 (F := Ideal)) (Cert.ReferenceIdeal.Read.val_main_v68 (F := Ideal) (m ((c : Thread nD τ).loc main_arg4))) E) := by
  subst hE
  show StableHlo.after hostOps3 (W6 m ρ c) (Proc.devRef .tc main_v61) = _
  after_results_simp
  rw [W6_v35, W5_v35]
  all_goals rfl

set_option maxHeartbeats 4000000 in
theorem V7_arg17 (c : Dev nD) : @Eq (Arr2 128 128) (V7 m ρ c main_arg17)
    ((m ((c : Thread nD τ).loc main_arg17))) := by
  show StableHlo.after hostOps3 (W6 m ρ c) (Proc.devRef .tc main_arg17) = _
  after_results_simp
  rw [W6_arg17]
  all_goals rfl

set_option maxHeartbeats 4000000 in
theorem V7_v62 (c : Dev nD) : @Eq (Arr2 1 128) (V7 m ρ c main_v62)
    (shapeCast S1x128 (m ((c : Thread nD τ).loc main_arg18)) shapeCasts_S128_S1x128) := by
  show StableHlo.after hostOps3 (W6 m ρ c) (Proc.devRef .tc main_v62) = _
  after_results_simp
  rw [W6_arg18]
  all_goals rfl

/-! ## Before region 4 -/

set_option maxHeartbeats 4000000 in
theorem V9_v64 (c : Dev nD) : @Eq (Arr2 50000 256) (V9 m ρ c main_v64)
    ((m ((c : Thread nD τ).loc main_arg6))) := by
  show StableHlo.after hostOps4 (W8 m ρ c) (Proc.devRef .tc main_v64) = _
  after_results_simp
  rw [W8_arg6]
  all_goals rfl

set_option maxHeartbeats 4000000 in
theorem V9_arg19 (c : Dev nD) : @Eq (Arr2 256 256) (V9 m ρ c main_arg19)
    ((m ((c : Thread nD τ).loc main_arg19))) := by
  show StableHlo.after hostOps4 (W8 m ρ c) (Proc.devRef .tc main_arg19) = _
  after_results_simp
  rw [W8_arg19]
  all_goals rfl

set_option maxHeartbeats 4000000 in
theorem V9_v65 (c : Dev nD) : @Eq (Arr2 1 256) (V9 m ρ c main_v65)
    (shapeCast S1x256 (m ((c : Thread nD τ).loc main_arg20)) shapeCasts_S256_S1x256) := by
  show StableHlo.after hostOps4 (W8 m ρ c) (Proc.devRef .tc main_v65) = _
  after_results_simp
  rw [W8_arg20]
  all_goals rfl

end Cert.KernelIdeal.KStage

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.EdgePayload.lean ====
/-
  What the edge kernel's body leaves in its output block, entry by entry.

  The body multiplies the three row-blocked inputs (5000 rows of target features, source features and edge attributes)
  by the three row blocks of the first weight matrix, adds the three products and the first bias row, applies
  x ↦ x · σ(x), multiplies by the second weight matrix, adds the second bias row, and applies x ↦ x · σ(x) twice.
  On the extended reals every format change is the identity and a product into the zero accumulator is the sum over
  the shared index, so entry (r, j) of the output block is the two-layer perceptron of row r of the input blocks.
  Both edge regions run the same body; the statements are given for each.
-/
import proofs.«138426_j17171279250040_2_alg».proof.Proof.Gen.KernelIdeal.Frame
import proofs.«138426_j17171279250040_2_alg».proof.Proof.Spec
import proofs.«138426_j17171279250040_2_alg».proof.Proof.LibPlainDot
import proofs.«138426_j17171279250040_2_alg».proof.Proof.LibRank2Layout
import Idealize.ShloMosaic.Lib.Pipeline.Value
import Idealize.ShloMosaic.Lib.ValueIdx

set_option maxRecDepth 16384

noncomputable section

open scoped BigOperators

namespace Cert.KernelIdeal.EdgeValue

open Idealize.ShloMosaic Idealize.ShloMosaic.ValueIdx Idealize.SL.Sem Cert.KernelIdeal Cert.KernelIdeal.Gen

theorem hz : (![0, 0] : Fin 2 → Nat) = fun _ => 0 := funext fun a => by fin_cases a <;> rfl

/-- The logistic function of a vector at an index is the logistic function of the entry. -/
theorem logistic_apply {s : Shape} {φ : FTy} (a : FVec Ideal s φ) (i : s.Idx) : logistic a i = Ideal.logistic (a i) := rfl

/-- A 5000×64 by 64×128 product into the zero accumulator at (r, j): the sum over the 64 shared indices. -/
theorem mm64 (l : FVec Ideal S5000x64 .bf16) (w : FVec Ideal S64x128 .bf16) (r : Fin 5000) (j : Fin 128) :
    matmul dot_S5000x64_S64x128_S5000x128_1_0_0_1_n_n none l w (constant (F := Ideal) S5000x128 .f32 0x00000000#32) (ix2 r j)
      = ∑ k : Fin 64, l (ix2 r k) * w (ix2 k j) :=
  Cert.Bridge.matmul_zero_plain dot_S5000x64_S64x128_S5000x128_1_0_0_1_n_n rfl rfl rfl rfl rfl rfl none l w r j

/-- A 5000×16 by 16×128 product into the zero accumulator at (r, j). -/
theorem mm16 (l : FVec Ideal S5000x16 .bf16) (w : FVec Ideal S16x128 .bf16) (r : Fin 5000) (j : Fin 128) :
    matmul dot_S5000x16_S16x128_S5000x128_1_0_0_1_n_n none l w (constant (F := Ideal) S5000x128 .f32 0x00000000#32) (ix2 r j)
      = ∑ k : Fin 16, l (ix2 r k) * w (ix2 k j) :=
  Cert.Bridge.matmul_zero_plain dot_S5000x16_S16x128_S5000x128_1_0_0_1_n_n rfl rfl rfl rfl rfl rfl none l w r j

/-- A 5000×128 by 128×128 product into the zero accumulator at (r, j). -/
theorem mm128 (l : FVec Ideal S5000x128 .bf16) (w : FVec Ideal S128x128 .bf16) (r : Fin 5000) (j : Fin 128) :
    matmul dot_S5000x128_S128x128_S5000x128_1_0_0_1_n_n none l w (constant (F := Ideal) S5000x128 .f32 0x00000000#32) (ix2 r j)
      = ∑ k : Fin 128, l (ix2 r k) * w (ix2 k j) :=
  Cert.Bridge.matmul_zero_plain dot_S5000x128_S128x128_S5000x128_1_0_0_1_n_n rfl rfl rfl rfl rfl rfl none l w r j

/-- The first layer at row r, unit k of a block. -/
def hid (x0 x1 : FVec Ideal S5000x64 .bf16) (x2 : FVec Ideal S5000x16 .bf16) (x3 x4 : FVec Ideal S64x128 .f32)
    (x5 : FVec Ideal S16x128 .f32) (x6 : FVec Ideal S1x128 .f32) (r : Fin 5000) (k : Fin 128) : EReal :=
  Cert.Spec.silu (((∑ a : Fin 64, x0 (ix2 r a) * x3 (ix2 a k) + ∑ a : Fin 64, x1 (ix2 r a) * x4 (ix2 a k))
    + ∑ a : Fin 16, x2 (ix2 r a) * x5 (ix2 a k)) + x6 (ix2 (0 : Fin 1) k))

/-- The second layer's activated output (one activation) at (r, j) of a block, region 0's body. -/
theorem pay2_apply0 (x0 x1 : FVec Ideal S5000x64 .bf16) (x2 : FVec Ideal S5000x16 .bf16) (x3 x4 : FVec Ideal S64x128 .f32)
    (x5 : FVec Ideal S16x128 .f32) (x6 : FVec Ideal S1x128 .f32) (x7 : FVec Ideal S128x128 .f32) (x8 : FVec Ideal S1x128 .f32)
    (r : Fin 5000) (j : Fin 128) :
    k0_pay2 (F := Ideal) x0 x1 x2 x3 x4 x5 x6 x7 x8 (ix2 r j)
      = Cert.Spec.silu ((∑ k : Fin 128, hid x0 x1 x2 x3 x4 x5 x6 r k * x7 (ix2 k j)) + x8 (ix2 (0 : Fin 1) j)) := by
  unfold k0_pay2
  simp only [shapeCast_self, ValueIdx.mulf_apply, ValueIdx.addf_apply, ValueIdx.truncf_apply, logistic_apply,
    Rank2.bcastRow_apply, mm64, mm16, mm128]
  rfl

/-- What the body leaves in the output block at (r, j): the two-layer perceptron of row r of the three input blocks,
    activated twice after the second layer. -/
theorem out0_9_apply (x0 x1 : FVec Ideal S5000x64 .bf16) (x2 : FVec Ideal S5000x16 .bf16) (x3 x4 : FVec Ideal S64x128 .f32)
    (x5 : FVec Ideal S16x128 .f32) (x6 : FVec Ideal S1x128 .f32) (x7 : FVec Ideal S128x128 .f32) (x8 : FVec Ideal S1x128 .f32)
    (r : Fin 5000) (j : Fin 128) :
    out0_9 (F := Ideal) x0 x1 x2 x3 x4 x5 x6 x7 x8 (ix2 r j)
      = Cert.Spec.silu (Cert.Spec.silu ((∑ k : Fin 128, hid x0 x1 x2 x3 x4 x5 x6 r k * x7 (ix2 k j)) + x8 (ix2 (0 : Fin 1) j))) := by
  unfold out0_9
  rw [View.canon_unit_zero hz]
  simp only [View.ld_unit_zero (S := S5000x64) hz, View.ld_unit_zero (S := S5000x16) hz, View.ld_unit_zero (S := S64x128) hz,
    View.ld_unit_zero (S := S16x128) hz, View.ld_unit_zero (S := S1x128) hz, View.ld_unit_zero (S := S128x128) hz]
  unfold k0_pay1 k0_pay3
  simp only [ValueIdx.mulf_apply, ValueIdx.truncf_apply, logistic_apply, pay2_apply0]
  rfl

/-- The second layer's activated output (one activation) at (r, j) of a block, region 2's body. -/
theorem pay2_apply2 (x0 x1 : FVec Ideal S5000x64 .bf16) (x2 : FVec Ideal S5000x16 .bf16) (x3 x4 : FVec Ideal S64x128 .f32)
    (x5 : FVec Ideal S16x128 .f32) (x6 : FVec Ideal S1x128 .f32) (x7 : FVec Ideal S128x128 .f32) (x8 : FVec Ideal S1x128 .f32)
    (r : Fin 5000) (j : Fin 128) :
    k2_pay2 (F := Ideal) x0 x1 x2 x3 x4 x5 x6 x7 x8 (ix2 r j)
      = Cert.Spec.silu ((∑ k : Fin 128, hid x0 x1 x2 x3 x4 x5 x6 r k * x7 (ix2 k j)) + x8 (ix2 (0 : Fin 1) j)) := by
  unfold k2_pay2
  simp only [shapeCast_self, ValueIdx.mulf_apply, ValueIdx.addf_apply, ValueIdx.truncf_apply, logistic_apply,
    Rank2.bcastRow_apply, mm64, mm16, mm128]
  rfl

/-- What the body leaves in the output block at (r, j): the two-layer perceptron of row r of the three input blocks,
    activated twice after the second layer. -/
theorem out2_9_apply (x0 x1 : FVec Ideal S5000x64 .bf16) (x2 : FVec Ideal S5000x16 .bf16) (x3 x4 : FVec Ideal S64x128 .f32)
    (x5 : FVec Ideal S16x128 .f32) (x6 : FVec Ideal S1x128 .f32) (x7 : FVec Ideal S128x128 .f32) (x8 : FVec Ideal S1x128 .f32)
    (r : Fin 5000) (j : Fin 128) :
    out2_9 (F := Ideal) x0 x1 x2 x3 x4 x5 x6 x7 x8 (ix2 r j)
      = Cert.Spec.silu (Cert.Spec.silu ((∑ k : Fin 128, hid x0 x1 x2 x3 x4 x5 x6 r k * x7 (ix2 k j)) + x8 (ix2 (0 : Fin 1) j))) := by
  unfold out2_9
  rw [View.canon_unit_zero hz]
  simp only [View.ld_unit_zero (S := S5000x64) hz, View.ld_unit_zero (S := S5000x16) hz, View.ld_unit_zero (S := S64x128) hz,
    View.ld_unit_zero (S := S16x128) hz, View.ld_unit_zero (S := S1x128) hz, View.ld_unit_zero (S := S128x128) hz]
  unfold k2_pay1 k2_pay3
  simp only [ValueIdx.mulf_apply, ValueIdx.truncf_apply, logistic_apply, pay2_apply2]
  rfl

/-- Row r of the output block is row e of the whole-array message function, when row r of each of the three row-blocked
    input blocks is row e of its array and the six weight and bias blocks are their arrays. -/
theorem out0_9_rows (gd gs : Cert.Spec.Arr2 500000 64) (ea : Cert.Spec.Arr2 500000 16) (wa wb : Cert.Spec.Arr2 64 128)
    (wc : Cert.Spec.Arr2 16 128) (b1r : Cert.Spec.Arr2 1 128) (w2 : Cert.Spec.Arr2 128 128) (b2r : Cert.Spec.Arr2 1 128)
    (x0 x1 : FVec Ideal S5000x64 .bf16) (x2 : FVec Ideal S5000x16 .bf16) (x3 x4 : FVec Ideal S64x128 .f32)
    (x5 : FVec Ideal S16x128 .f32) (x6 : FVec Ideal S1x128 .f32) (x7 : FVec Ideal S128x128 .f32) (x8 : FVec Ideal S1x128 .f32)
    (e : Fin 500000) (r : Fin 5000) (j : Fin 128)
    (h0 : ∀ k : Fin 64, x0 (ix2 r k) = gd (ix2 e k)) (h1 : ∀ k : Fin 64, x1 (ix2 r k) = gs (ix2 e k))
    (h2 : ∀ k : Fin 16, x2 (ix2 r k) = ea (ix2 e k))
    (h3 : ∀ (a : Fin 64) (k : Fin 128), x3 (ix2 a k) = wa (ix2 a k)) (h4 : ∀ (a : Fin 64) (k : Fin 128), x4 (ix2 a k) = wb (ix2 a k))
    (h5 : ∀ (a : Fin 16) (k : Fin 128), x5 (ix2 a k) = wc (ix2 a k)) (h6 : ∀ k : Fin 128, x6 (ix2 (0 : Fin 1) k) = b1r (ix2 (0 : Fin 1) k))
    (h7 : ∀ (a : Fin 128) (k : Fin 128), x7 (ix2 a k) = w2 (ix2 a k)) (h8 : ∀ k : Fin 128, x8 (ix2 (0 : Fin 1) k) = b2r (ix2 (0 : Fin 1) k)) :
    out0_9 (F := Ideal) x0 x1 x2 x3 x4 x5 x6 x7 x8 (ix2 r j) = Cert.Spec.edgeMsgKAt gd gs ea wa wb wc b1r w2 b2r e j := by
  rw [out0_9_apply]
  unfold Cert.Spec.edgeMsgKAt Cert.Spec.hiddenKAt hid
  simp only [h0, h1, h2, h3, h4, h5, h6, h7, h8]

/-- Row r of the output block is row e of the whole-array message function, when row r of each of the three row-blocked
    input blocks is row e of its array and the six weight and bias blocks are their arrays. -/
theorem out2_9_rows (gd gs : Cert.Spec.Arr2 500000 64) (ea : Cert.Spec.Arr2 500000 16) (wa wb : Cert.Spec.Arr2 64 128)
    (wc : Cert.Spec.Arr2 16 128) (b1r : Cert.Spec.Arr2 1 128) (w2 : Cert.Spec.Arr2 128 128) (b2r : Cert.Spec.Arr2 1 128)
    (x0 x1 : FVec Ideal S5000x64 .bf16) (x2 : FVec Ideal S5000x16 .bf16) (x3 x4 : FVec Ideal S64x128 .f32)
    (x5 : FVec Ideal S16x128 .f32) (x6 : FVec Ideal S1x128 .f32) (x7 : FVec Ideal S128x128 .f32) (x8 : FVec Ideal S1x128 .f32)
    (e : Fin 500000) (r : Fin 5000) (j : Fin 128)
    (h0 : ∀ k : Fin 64, x0 (ix2 r k) = gd (ix2 e k)) (h1 : ∀ k : Fin 64, x1 (ix2 r k) = gs (ix2 e k))
    (h2 : ∀ k : Fin 16, x2 (ix2 r k) = ea (ix2 e k))
    (h3 : ∀ (a : Fin 64) (k : Fin 128), x3 (ix2 a k) = wa (ix2 a k)) (h4 : ∀ (a : Fin 64) (k : Fin 128), x4 (ix2 a k) = wb (ix2 a k))
    (h5 : ∀ (a : Fin 16) (k : Fin 128), x5 (ix2 a k) = wc (ix2 a k)) (h6 : ∀ k : Fin 128, x6 (ix2 (0 : Fin 1) k) = b1r (ix2 (0 : Fin 1) k))
    (h7 : ∀ (a : Fin 128) (k : Fin 128), x7 (ix2 a k) = w2 (ix2 a k)) (h8 : ∀ k : Fin 128, x8 (ix2 (0 : Fin 1) k) = b2r (ix2 (0 : Fin 1) k)) :
    out2_9 (F := Ideal) x0 x1 x2 x3 x4 x5 x6 x7 x8 (ix2 r j) = Cert.Spec.edgeMsgKAt gd gs ea wa wb wc b1r w2 b2r e j := by
  rw [out2_9_apply]
  unfold Cert.Spec.edgeMsgKAt Cert.Spec.hiddenKAt hid
  simp only [h0, h1, h2, h3, h4, h5, h6, h7, h8]

end Cert.KernelIdeal.EdgeValue
end
-- ==== Proof.EdgeValue.lean ====
/-
  The message array after each of the two edge regions.

  A region's grid has 100 points; point t stages rows 5000·t … 5000·t + 4999 of the gathered target rows, the gathered
  source rows and the edge attributes, the whole of the three row blocks of the first weight matrix, of the first bias
  row, of the second weight matrix and of the second bias row, and writes back rows 5000·t … 5000·t + 4999 of the
  message array. Entry (r, j) of the block the body leaves depends on row r of the three row-blocked inputs only, and
  is the two-layer perceptron of that row; so the block point t writes back is the restriction of the whole-array
  message function to its rows, the 100 blocks cover the 500000 rows (row e lies in the block of point e / 5000), and
  the array ends holding the message function of the arrays the region finds.
-/
import proofs.«138426_j17171279250040_2_alg».proof.Proof.Gen.KernelIdeal.Frame
import proofs.«138426_j17171279250040_2_alg».proof.Proof.Spec
import proofs.«138426_j17171279250040_2_alg».proof.Proof.EdgePayload
import Idealize.ShloMosaic.Lib.Pipeline.Value
import Idealize.ShloMosaic.Lib.ValueIdx

set_option maxRecDepth 16384

noncomputable section

open scoped BigOperators

namespace Cert.KernelIdeal.EdgeValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## Region 0 -/

/-- The printed index maps of region 0, decided over its 100 grid points: the three row-blocked inputs and the output sit
    at block (t, 0), the six weight and bias windows at block (0, 0). -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-- Row r of the block of window 0 at point t is row 5000·t + r of its array. -/
theorem blk0_0 (c : Dev nD) (t : Fin cfg0.N) (r : Fin 5000) (k : Fin 64) (e : Fin 500000) (he : e.val = 5000 * t.val + r.val) :
    iblk0 V c 0 t (ix2 r k) = V c main_v12 (ix2 e k) := by
  obtain ⟨i0, i1⟩ := idx0_0 t
  show V c main_v12 (((cfg0.win 0).blk t).view.emb (ix2 r k)) = V c main_v12 (ix2 e k)
  refine congrArg (V c main_v12) (funext fun d => Fin.ext ?_)
  match d with
  | ⟨0, _⟩ => show win0_0.index t (0 : Fin 2) * 5000 + 1 * r.val = e.val; omega
  | ⟨1, _⟩ => show win0_0.index t (1 : Fin 2) * 64 + 1 * k.val = k.val; omega

/-- Row r of the block of window 1 at point t is row 5000·t + r of its array. -/
theorem blk0_1 (c : Dev nD) (t : Fin cfg0.N) (r : Fin 5000) (k : Fin 64) (e : Fin 500000) (he : e.val = 5000 * t.val + r.val) :
    iblk0 V c 1 t (ix2 r k) = V c main_v19 (ix2 e k) := by
  obtain ⟨i0, i1⟩ := idx0_1 t
  show V c main_v19 (((cfg0.win 1).blk t).view.emb (ix2 r k)) = V c main_v19 (ix2 e k)
  refine congrArg (V c main_v19) (funext fun d => Fin.ext ?_)
  match d with
  | ⟨0, _⟩ => show win0_1.index t (0 : Fin 2) * 5000 + 1 * r.val = e.val; omega
  | ⟨1, _⟩ => show win0_1.index t (1 : Fin 2) * 64 + 1 * k.val = k.val; omega

/-- Row r of the block of window 2 at point t is row 5000·t + r of its array. -/
theorem blk0_2 (c : Dev nD) (t : Fin cfg0.N) (r : Fin 5000) (k : Fin 16) (e : Fin 500000) (he : e.val = 5000 * t.val + r.val) :
    iblk0 V c 2 t (ix2 r k) = V c main_v5 (ix2 e k) := by
  obtain ⟨i0, i1⟩ := idx0_2 t
  show V c main_v5 (((cfg0.win 2).blk t).view.emb (ix2 r k)) = V c main_v5 (ix2 e k)
  refine congrArg (V c main_v5) (funext fun d => Fin.ext ?_)
  match d with
  | ⟨0, _⟩ => show win0_2.index t (0 : Fin 2) * 5000 + 1 * r.val = e.val; omega
  | ⟨1, _⟩ => show win0_2.index t (1 : Fin 2) * 16 + 1 * k.val = k.val; omega

/-- The block of window 3 at every point is its whole array. -/
theorem blk0_3 (c : Dev nD) (t : Fin cfg0.N) (a : Fin 64) (k : Fin 128) :
    iblk0 V c 3 t (ix2 a k) = V c main_v20 (ix2 a k) := by
  obtain ⟨i0, i1⟩ := idx0_3 t
  show V c main_v20 (((cfg0.win 3).blk t).view.emb (ix2 a k)) = V c main_v20 (ix2 a k)
  refine congrArg (V c main_v20) (funext fun d => Fin.ext ?_)
  match d with
  | ⟨0, _⟩ => show win0_3.index t (0 : Fin 2) * 64 + 1 * a.val = a.val; omega
  | ⟨1, _⟩ => show win0_3.index t (1 : Fin 2) * 128 + 1 * k.val = k.val; omega

/-- The block of window 4 at every point is its whole array. -/
theorem blk0_4 (c : Dev nD) (t : Fin cfg0.N) (a : Fin 64) (k : Fin 128) :
    iblk0 V c 4 t (ix2 a k) = V c main_v21 (ix2 a k) := by
  obtain ⟨i0, i1⟩ := idx0_4 t
  show V c main_v21 (((cfg0.win 4).blk t).view.emb (ix2 a k)) = V c main_v21 (ix2 a k)
  refine congrArg (V c main_v21) (funext fun d => Fin.ext ?_)
  match d with
  | ⟨0, _⟩ => show win0_4.index t (0 : Fin 2) * 64 + 1 * a.val = a.val; omega
  | ⟨1, _⟩ => show win0_4.index t (1 : Fin 2) * 128 + 1 * k.val = k.val; omega

/-- The block of window 5 at every point is its whole array. -/
theorem blk0_5 (c : Dev nD) (t : Fin cfg0.N) (a : Fin 16) (k : Fin 128) :
    iblk0 V c 5 t (ix2 a k) = V c main_v22 (ix2 a k) := by
  obtain ⟨i0, i1⟩ := idx0_5 t
  show V c main_v22 (((cfg0.win 5).blk t).view.emb (ix2 a k)) = V c main_v22 (ix2 a k)
  refine congrArg (V c main_v22) (funext fun d => Fin.ext ?_)
  match d with
  | ⟨0, _⟩ => show win0_5.index t (0 : Fin 2) * 16 + 1 * a.val = a.val; omega
  | ⟨1, _⟩ => show win0_5.index t (1 : Fin 2) * 128 + 1 * k.val = k.val; omega

/-- The block of window 6 at every point is its whole array. -/
theorem blk0_6 (c : Dev nD) (t : Fin cfg0.N) (a : Fin 1) (k : Fin 128) :
    iblk0 V c 6 t (ix2 a k) = V c main_v23 (ix2 a k) := by
  obtain ⟨i0, i1⟩ := idx0_6 t
  show V c main_v23 (((cfg0.win 6).blk t).view.emb (ix2 a k)) = V c main_v23 (ix2 a k)
  refine congrArg (V c main_v23) (funext fun d => Fin.ext ?_)
  match d with
  | ⟨0, _⟩ => show win0_6.index t (0 : Fin 2) * 1 + 1 * a.val = a.val; omega
  | ⟨1, _⟩ => show win0_6.index t (1 : Fin 2) * 128 + 1 * k.val = k.val; omega

/-- The block of window 7 at every point is its whole array. -/
theorem blk0_7 (c : Dev nD) (t : Fin cfg0.N) (a : Fin 128) (k : Fin 128) :
    iblk0 V c 7 t (ix2 a k) = V c main_arg9 (ix2 a k) := by
  obtain ⟨i0, i1⟩ := idx0_7 t
  show V c main_arg9 (((cfg0.win 7).blk t).view.emb (ix2 a k)) = V c main_arg9 (ix2 a k)
  refine congrArg (V c main_arg9) (funext fun d => Fin.ext ?_)
  match d with
  | ⟨0, _⟩ => show win0_7.index t (0 : Fin 2) * 128 + 1 * a.val = a.val; omega
  | ⟨1, _⟩ => show win0_7.index t (1 : Fin 2) * 128 + 1 * k.val = k.val; omega

/-- The block of window 8 at every point is its whole array. -/
theorem blk0_8 (c : Dev nD) (t : Fin cfg0.N) (a : Fin 1) (k : Fin 128) :
    iblk0 V c 8 t (ix2 a k) = V c main_v24 (ix2 a k) := by
  obtain ⟨i0, i1⟩ := idx0_8 t
  show V c main_v24 (((cfg0.win 8).blk t).view.emb (ix2 a k)) = V c main_v24 (ix2 a k)
  refine congrArg (V c main_v24) (funext fun d => Fin.ext ?_)
  match d with
  | ⟨0, _⟩ => show win0_8.index t (0 : Fin 2) * 1 + 1 * a.val = a.val; omega
  | ⟨1, _⟩ => show win0_8.index t (1 : Fin 2) * 128 + 1 * k.val = k.val; omega

/-- The block that grid point t writes back is rows 5000·t … 5000·t + 4999 of the message array. -/
theorem flushed0 (c : Dev nD) (t : Fin cfg0.N) :
    (dat0 (F := Ideal) V c).flushed 9 t = ((cfg0.win 9).blk t).view.read (Elt Ideal)
      (Cert.Spec.edgeMsgK (V c main_v12) (V c main_v19) (V c main_v5) (V c main_v20) (V c main_v21) (V c main_v22) (V c main_v23) (V c main_arg9) (V c main_v24)) := by
  show (cfg0.win 9).cut (grid0.coords t) ((dat0 V c).after 9 t) = _
  rw [after0_9]
  obtain ⟨i0, i1⟩ := idx0_9 t
  have hN : cfg0.N = 100 := N_0
  have ht : t.val < 100 := hN ▸ t.isLt
  funext y
  obtain ⟨r, j, rfl⟩ : ∃ (r : Fin 5000) (j : Fin 128), y = ix2 r j := ⟨y 0, y 1, eq_ix2 y⟩
  have hr : r.val < 5000 := r.isLt
  have hi : ((cfg0.win 9).blk t).view.emb (ix2 r j) = (ix2 (⟨5000 * t.val + r.val, by omega⟩ : Fin 500000) j : S500000x128.Idx) := by
    funext d; apply Fin.ext
    match d with
    | ⟨0, _⟩ => show win0_9.index t (0 : Fin 2) * 5000 + 1 * r.val = 5000 * t.val + r.val; omega
    | ⟨1, _⟩ => show win0_9.index t (1 : Fin 2) * 128 + 1 * j.val = j.val; omega
  show out0_9 (F := Ideal) _ _ _ _ _ _ _ _ _ (ix2 r j) = (Cert.Spec.edgeMsgK (V c main_v12) (V c main_v19) (V c main_v5) (V c main_v20) (V c main_v21) (V c main_v22) (V c main_v23) (V c main_arg9) (V c main_v24)) (((cfg0.win 9).blk t).view.emb (ix2 r j))
  rw [hi]
  show _ = Cert.Spec.edgeMsgKAt (V c main_v12) (V c main_v19) (V c main_v5) (V c main_v20) (V c main_v21) (V c main_v22) (V c main_v23) (V c main_arg9) (V c main_v24) (⟨5000 * t.val + r.val, by omega⟩ : Fin 500000) j
  exact out0_9_rows (V c main_v12) (V c main_v19) (V c main_v5) (V c main_v20) (V c main_v21) (V c main_v22) (V c main_v23) (V c main_arg9) (V c main_v24)
    (iblk0 V c 0 t) (iblk0 V c 1 t) (iblk0 V c 2 t) (iblk0 V c 3 t) (iblk0 V c 4 t) (iblk0 V c 5 t) (iblk0 V c 6 t) (iblk0 V c 7 t) (iblk0 V c 8 t)
    (⟨5000 * t.val + r.val, by omega⟩ : Fin 500000) r j
    (fun k => blk0_0 V c t r k _ rfl) (fun k => blk0_1 V c t r k _ rfl) (fun k => blk0_2 V c t r k _ rfl)
    (fun a k => blk0_3 V c t a k) (fun a k => blk0_4 V c t a k) (fun a k => blk0_5 V c t a k) (fun k => blk0_6 V c t 0 k)
    (fun a k => blk0_7 V c t a k) (fun k => blk0_8 V c t 0 k)

/-- An index of the message array is in point t's block iff each coordinate is in the block's range on its axis. -/
theorem mem_blk0 (t : Fin cfg0.N) (i : S500000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v25).slice (win0_9.rect t)).set ↔ _
  rw [View.set_slice_whole, Rect.mem_set_unit]
  exact Iff.rfl

/-- Row e of the message array is in the block of grid point e / 5000. -/
theorem covered0 (i : S500000x128.Idx) :
    ∃ t : Fin cfg0.N, (cfg0.win 9).flush t = true ∧ i ∈ ((cfg0.win 9).blk t).view.set := by
  have hN : cfg0.N = 100 := N_0
  have hi0 : (i 0).val < 500000 := (i 0).isLt
  have hi1 : (i 1).val < 128 := (i 1).isLt
  have hlt : (i 0).val / 5000 < cfg0.N := by rw [hN]; omega
  obtain ⟨a90, a91⟩ := idx0_9 ⟨(i 0).val / 5000, hlt⟩
  refine ⟨⟨(i 0).val / 5000, hlt⟩, flush0_9 _, ?_⟩
  rw [mem_blk0]
  intro a
  match a with
  | ⟨0, _⟩ =>
    show win0_9.index ⟨(i 0).val / 5000, hlt⟩ (0 : Fin 2) * 5000 ≤ (i 0).val ∧ (i 0).val < win0_9.index ⟨(i 0).val / 5000, hlt⟩ (0 : Fin 2) * 5000 + 5000
    rw [a90]
    show (i 0).val / 5000 * 5000 ≤ (i 0).val ∧ (i 0).val < (i 0).val / 5000 * 5000 + 5000
    omega
  | ⟨1, _⟩ =>
    show win0_9.index ⟨(i 0).val / 5000, hlt⟩ (1 : Fin 2) * 128 ≤ (i 1).val ∧ (i 1).val < win0_9.index ⟨(i 0).val / 5000, hlt⟩ (1 : Fin 2) * 128 + 128
    rw [a91]
    omega

/-- The message array after region 0: the two-layer perceptron, row by row, of the arrays the region finds. -/
theorem region0 (c : Dev nD) :
    (dat0 (F := Ideal) V c).arrAt 9 cfg0.N
      = Cert.Spec.edgeMsgK (V c main_v12) (V c main_v19) (V c main_v5) (V c main_v20) (V c main_v21) (V c main_v22) (V c main_v23) (V c main_arg9) (V c main_v24) :=
  (dat0 (F := Ideal) V c).arrAt_eq_of_cover 9 (Cert.Spec.edgeMsgK (V c main_v12) (V c main_v19) (V c main_v5) (V c main_v20) (V c main_v21) (V c main_v22) (V c main_v23) (V c main_arg9) (V c main_v24))
    (fun t _ => flushed0 V c t) (fun i => covered0 i)

/-! ## Region 2 -/

/-- The printed index maps of region 2, decided over its 100 grid points: the three row-blocked inputs and the output sit
    at block (t, 0), the six weight and bias windows at block (0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = t.val ∧ win2_9.index t (1 : Fin 2) = 0 :=
  (by decide +kernel : ∀ t : Fin grid2.N, _)

/-- Row r of the block of window 0 at point t is row 5000·t + r of its array. -/
theorem blk2_0 (c : Dev nD) (t : Fin cfg2.N) (r : Fin 5000) (k : Fin 64) (e : Fin 500000) (he : e.val = 5000 * t.val + r.val) :
    iblk2 V c 0 t (ix2 r k) = V c main_v44 (ix2 e k) := by
  obtain ⟨i0, i1⟩ := idx2_0 t
  show V c main_v44 (((cfg2.win 0).blk t).view.emb (ix2 r k)) = V c main_v44 (ix2 e k)
  refine congrArg (V c main_v44) (funext fun d => Fin.ext ?_)
  match d with
  | ⟨0, _⟩ => show win2_0.index t (0 : Fin 2) * 5000 + 1 * r.val = e.val; omega
  | ⟨1, _⟩ => show win2_0.index t (1 : Fin 2) * 64 + 1 * k.val = k.val; omega

/-- Row r of the block of window 1 at point t is row 5000·t + r of its array. -/
theorem blk2_1 (c : Dev nD) (t : Fin cfg2.N) (r : Fin 5000) (k : Fin 64) (e : Fin 500000) (he : e.val = 5000 * t.val + r.val) :
    iblk2 V c 1 t (ix2 r k) = V c main_v51 (ix2 e k) := by
  obtain ⟨i0, i1⟩ := idx2_1 t
  show V c main_v51 (((cfg2.win 1).blk t).view.emb (ix2 r k)) = V c main_v51 (ix2 e k)
  refine congrArg (V c main_v51) (funext fun d => Fin.ext ?_)
  match d with
  | ⟨0, _⟩ => show win2_1.index t (0 : Fin 2) * 5000 + 1 * r.val = e.val; omega
  | ⟨1, _⟩ => show win2_1.index t (1 : Fin 2) * 64 + 1 * k.val = k.val; omega

/-- Row r of the block of window 2 at point t is row 5000·t + r of its array. -/
theorem blk2_2 (c : Dev nD) (t : Fin cfg2.N) (r : Fin 5000) (k : Fin 16) (e : Fin 500000) (he : e.val = 5000 * t.val + r.val) :
    iblk2 V c 2 t (ix2 r k) = V c main_v37 (ix2 e k) := by
  obtain ⟨i0, i1⟩ := idx2_2 t
  show V c main_v37 (((cfg2.win 2).blk t).view.emb (ix2 r k)) = V c main_v37 (ix2 e k)
  refine congrArg (V c main_v37) (funext fun d => Fin.ext ?_)
  match d with
  | ⟨0, _⟩ => show win2_2.index t (0 : Fin 2) * 5000 + 1 * r.val = e.val; omega
  | ⟨1, _⟩ => show win2_2.index t (1 : Fin 2) * 16 + 1 * k.val = k.val; omega

/-- The block of window 3 at every point is its whole array. -/
theorem blk2_3 (c : Dev nD) (t : Fin cfg2.N) (a : Fin 64) (k : Fin 128) :
    iblk2 V c 3 t (ix2 a k) = V c main_v52 (ix2 a k) := by
  obtain ⟨i0, i1⟩ := idx2_3 t
  show V c main_v52 (((cfg2.win 3).blk t).view.emb (ix2 a k)) = V c main_v52 (ix2 a k)
  refine congrArg (V c main_v52) (funext fun d => Fin.ext ?_)
  match d with
  | ⟨0, _⟩ => show win2_3.index t (0 : Fin 2) * 64 + 1 * a.val = a.val; omega
  | ⟨1, _⟩ => show win2_3.index t (1 : Fin 2) * 128 + 1 * k.val = k.val; omega

/-- The block of window 4 at every point is its whole array. -/
theorem blk2_4 (c : Dev nD) (t : Fin cfg2.N) (a : Fin 64) (k : Fin 128) :
    iblk2 V c 4 t (ix2 a k) = V c main_v53 (ix2 a k) := by
  obtain ⟨i0, i1⟩ := idx2_4 t
  show V c main_v53 (((cfg2.win 4).blk t).view.emb (ix2 a k)) = V c main_v53 (ix2 a k)
  refine congrArg (V c main_v53) (funext fun d => Fin.ext ?_)
  match d with
  | ⟨0, _⟩ => show win2_4.index t (0 : Fin 2) * 64 + 1 * a.val = a.val; omega
  | ⟨1, _⟩ => show win2_4.index t (1 : Fin 2) * 128 + 1 * k.val = k.val; omega

/-- The block of window 5 at every point is its whole array. -/
theorem blk2_5 (c : Dev nD) (t : Fin cfg2.N) (a : Fin 16) (k : Fin 128) :
    iblk2 V c 5 t (ix2 a k) = V c main_v54 (ix2 a k) := by
  obtain ⟨i0, i1⟩ := idx2_5 t
  show V c main_v54 (((cfg2.win 5).blk t).view.emb (ix2 a k)) = V c main_v54 (ix2 a k)
  refine congrArg (V c main_v54) (funext fun d => Fin.ext ?_)
  match d with
  | ⟨0, _⟩ => show win2_5.index t (0 : Fin 2) * 16 + 1 * a.val = a.val; omega
  | ⟨1, _⟩ => show win2_5.index t (1 : Fin 2) * 128 + 1 * k.val = k.val; omega

/-- The block of window 6 at every point is its whole array. -/
theorem blk2_6 (c : Dev nD) (t : Fin cfg2.N) (a : Fin 1) (k : Fin 128) :
    iblk2 V c 6 t (ix2 a k) = V c main_v55 (ix2 a k) := by
  obtain ⟨i0, i1⟩ := idx2_6 t
  show V c main_v55 (((cfg2.win 6).blk t).view.emb (ix2 a k)) = V c main_v55 (ix2 a k)
  refine congrArg (V c main_v55) (funext fun d => Fin.ext ?_)
  match d with
  | ⟨0, _⟩ => show win2_6.index t (0 : Fin 2) * 1 + 1 * a.val = a.val; omega
  | ⟨1, _⟩ => show win2_6.index t (1 : Fin 2) * 128 + 1 * k.val = k.val; omega

/-- The block of window 7 at every point is its whole array. -/
theorem blk2_7 (c : Dev nD) (t : Fin cfg2.N) (a : Fin 128) (k : Fin 128) :
    iblk2 V c 7 t (ix2 a k) = V c main_arg15 (ix2 a k) := by
  obtain ⟨i0, i1⟩ := idx2_7 t
  show V c main_arg15 (((cfg2.win 7).blk t).view.emb (ix2 a k)) = V c main_arg15 (ix2 a k)
  refine congrArg (V c main_arg15) (funext fun d => Fin.ext ?_)
  match d with
  | ⟨0, _⟩ => show win2_7.index t (0 : Fin 2) * 128 + 1 * a.val = a.val; omega
  | ⟨1, _⟩ => show win2_7.index t (1 : Fin 2) * 128 + 1 * k.val = k.val; omega

/-- The block of window 8 at every point is its whole array. -/
theorem blk2_8 (c : Dev nD) (t : Fin cfg2.N) (a : Fin 1) (k : Fin 128) :
    iblk2 V c 8 t (ix2 a k) = V c main_v56 (ix2 a k) := by
  obtain ⟨i0, i1⟩ := idx2_8 t
  show V c main_v56 (((cfg2.win 8).blk t).view.emb (ix2 a k)) = V c main_v56 (ix2 a k)
  refine congrArg (V c main_v56) (funext fun d => Fin.ext ?_)
  match d with
  | ⟨0, _⟩ => show win2_8.index t (0 : Fin 2) * 1 + 1 * a.val = a.val; omega
  | ⟨1, _⟩ => show win2_8.index t (1 : Fin 2) * 128 + 1 * k.val = k.val; omega

/-- The block that grid point t writes back is rows 5000·t … 5000·t + 4999 of the message array. -/
theorem flushed2 (c : Dev nD) (t : Fin cfg2.N) :
    (dat2 (F := Ideal) V c).flushed 9 t = ((cfg2.win 9).blk t).view.read (Elt Ideal)
      (Cert.Spec.edgeMsgK (V c main_v44) (V c main_v51) (V c main_v37) (V c main_v52) (V c main_v53) (V c main_v54) (V c main_v55) (V c main_arg15) (V c main_v56)) := by
  show (cfg2.win 9).cut (grid2.coords t) ((dat2 V c).after 9 t) = _
  rw [after2_9]
  obtain ⟨i0, i1⟩ := idx2_9 t
  have hN : cfg2.N = 100 := N_2
  have ht : t.val < 100 := hN ▸ t.isLt
  funext y
  obtain ⟨r, j, rfl⟩ : ∃ (r : Fin 5000) (j : Fin 128), y = ix2 r j := ⟨y 0, y 1, eq_ix2 y⟩
  have hr : r.val < 5000 := r.isLt
  have hi : ((cfg2.win 9).blk t).view.emb (ix2 r j) = (ix2 (⟨5000 * t.val + r.val, by omega⟩ : Fin 500000) j : S500000x128.Idx) := by
    funext d; apply Fin.ext
    match d with
    | ⟨0, _⟩ => show win2_9.index t (0 : Fin 2) * 5000 + 1 * r.val = 5000 * t.val + r.val; omega
    | ⟨1, _⟩ => show win2_9.index t (1 : Fin 2) * 128 + 1 * j.val = j.val; omega
  show out2_9 (F := Ideal) _ _ _ _ _ _ _ _ _ (ix2 r j) = (Cert.Spec.edgeMsgK (V c main_v44) (V c main_v51) (V c main_v37) (V c main_v52) (V c main_v53) (V c main_v54) (V c main_v55) (V c main_arg15) (V c main_v56)) (((cfg2.win 9).blk t).view.emb (ix2 r j))
  rw [hi]
  show _ = Cert.Spec.edgeMsgKAt (V c main_v44) (V c main_v51) (V c main_v37) (V c main_v52) (V c main_v53) (V c main_v54) (V c main_v55) (V c main_arg15) (V c main_v56) (⟨5000 * t.val + r.val, by omega⟩ : Fin 500000) j
  exact out2_9_rows (V c main_v44) (V c main_v51) (V c main_v37) (V c main_v52) (V c main_v53) (V c main_v54) (V c main_v55) (V c main_arg15) (V c main_v56)
    (iblk2 V c 0 t) (iblk2 V c 1 t) (iblk2 V c 2 t) (iblk2 V c 3 t) (iblk2 V c 4 t) (iblk2 V c 5 t) (iblk2 V c 6 t) (iblk2 V c 7 t) (iblk2 V c 8 t)
    (⟨5000 * t.val + r.val, by omega⟩ : Fin 500000) r j
    (fun k => blk2_0 V c t r k _ rfl) (fun k => blk2_1 V c t r k _ rfl) (fun k => blk2_2 V c t r k _ rfl)
    (fun a k => blk2_3 V c t a k) (fun a k => blk2_4 V c t a k) (fun a k => blk2_5 V c t a k) (fun k => blk2_6 V c t 0 k)
    (fun a k => blk2_7 V c t a k) (fun k => blk2_8 V c t 0 k)

/-- An index of the message array is in point t's block iff each coordinate is in the block's range on its axis. -/
theorem mem_blk2 (t : Fin cfg2.N) (i : S500000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v57).slice (win2_9.rect t)).set ↔ _
  rw [View.set_slice_whole, Rect.mem_set_unit]
  exact Iff.rfl

/-- Row e of the message array is in the block of grid point e / 5000. -/
theorem covered2 (i : S500000x128.Idx) :
    ∃ t : Fin cfg2.N, (cfg2.win 9).flush t = true ∧ i ∈ ((cfg2.win 9).blk t).view.set := by
  have hN : cfg2.N = 100 := N_2
  have hi0 : (i 0).val < 500000 := (i 0).isLt
  have hi1 : (i 1).val < 128 := (i 1).isLt
  have hlt : (i 0).val / 5000 < cfg2.N := by rw [hN]; omega
  obtain ⟨a90, a91⟩ := idx2_9 ⟨(i 0).val / 5000, hlt⟩
  refine ⟨⟨(i 0).val / 5000, hlt⟩, flush2_9 _, ?_⟩
  rw [mem_blk2]
  intro a
  match a with
  | ⟨0, _⟩ =>
    show win2_9.index ⟨(i 0).val / 5000, hlt⟩ (0 : Fin 2) * 5000 ≤ (i 0).val ∧ (i 0).val < win2_9.index ⟨(i 0).val / 5000, hlt⟩ (0 : Fin 2) * 5000 + 5000
    rw [a90]
    show (i 0).val / 5000 * 5000 ≤ (i 0).val ∧ (i 0).val < (i 0).val / 5000 * 5000 + 5000
    omega
  | ⟨1, _⟩ =>
    show win2_9.index ⟨(i 0).val / 5000, hlt⟩ (1 : Fin 2) * 128 ≤ (i 1).val ∧ (i 1).val < win2_9.index ⟨(i 0).val / 5000, hlt⟩ (1 : Fin 2) * 128 + 128
    rw [a91]
    omega

/-- The message array after region 2: the two-layer perceptron, row by row, of the arrays the region finds. -/
theorem region2 (c : Dev nD) :
    (dat2 (F := Ideal) V c).arrAt 9 cfg2.N
      = Cert.Spec.edgeMsgK (V c main_v44) (V c main_v51) (V c main_v37) (V c main_v52) (V c main_v53) (V c main_v54) (V c main_v55) (V c main_arg15) (V c main_v56) :=
  (dat2 (F := Ideal) V c).arrAt_eq_of_cover 9 (Cert.Spec.edgeMsgK (V c main_v44) (V c main_v51) (V c main_v37) (V c main_v52) (V c main_v53) (V c main_v54) (V c main_v55) (V c main_arg15) (V c main_v56))
    (fun t _ => flushed2 V c t) (fun i => covered2 i)

end Cert.KernelIdeal.EdgeValue
end
-- ==== Proof.LinValue.lean ====
/-
  The three affine kernels of the layer, read off their pipelines.

  Each of the three regions runs one body over ten grid points; point t stages rows 5000·t … 5000·t + 4999 of the
  input matrix, the whole weight matrix and the one-row bias, and writes back the same rows of the result.  The
  body's one store holds, at row r and column j of the block, the sum over k of input (r, k) · weight (k, j) plus
  bias (0, j) (format changes are the identity on the extended reals); the third region's body then applies
  x ↦ x · σ(x).  So what point t writes back is the restriction to its rows of the whole-array function of the
  specification, and since the ten blocks cover all 50000 rows, the result array ends holding that function.
-/
import proofs.«138426_j17171279250040_2_alg».proof.Proof.Gen.KernelIdeal.Frame
import proofs.«138426_j17171279250040_2_alg».proof.Proof.Spec
import proofs.«138426_j17171279250040_2_alg».proof.Proof.LibPlainDot
import proofs.«138426_j17171279250040_2_alg».proof.Proof.LibRank2Layout
import Idealize.ShloMosaic.Lib.Pipeline.Value
import Idealize.ShloMosaic.Lib.ValueIdx

noncomputable section

open scoped BigOperators

namespace Cert.KernelIdeal.LinValue

open Idealize.ShloMosaic Idealize.ShloMosaic.ValueIdx Idealize.ShloMosaic.TcCoe Idealize.SL.Sem
open Cert.KernelIdeal Cert.KernelIdeal.Gen
open Idealize.ShloMosaic.Pipeline (Dat)

/-- The zero offset of a whole-buffer access. -/
theorem hz : (![0, 0] : Fin 2 → Nat) = fun _ => 0 := funext fun a => by fin_cases a <;> rfl

/-! ## Region 1: rows of main_v29 times main_arg11 plus the one row main_v30 -/

/-- THE BODY'S STORE AT (r, j): row r of the input block times column j of the weight block, plus the bias row's
    entry j.  The format changes and the casts of a shape to itself are the identity; the matrix product starts from the
    zero accumulator; the bias row is repeated down the rows. -/
theorem out1_apply (x0 : FVec Ideal S5000x128 .f32) (x1 : FVec Ideal S128x128 .f32) (x2 : FVec Ideal S1x128 .f32)
    (r : Fin 5000) (j : Fin 128) :
    out1_3 (F := Ideal) x0 x1 x2 (ix2 r j) = (∑ k : Fin 128, x0 (ix2 r k) * x1 (ix2 k j)) + x2 (ix2 (0 : Fin 1) j) := by
  unfold out1_3
  rw [View.canon_unit_zero hz]
  simp only [View.ld_unit_zero (S := S5000x128) hz, View.ld_unit_zero (S := S128x128) hz, View.ld_unit_zero (S := S1x128) hz]
  unfold k1_pay1
  simp only [shapeCast_self]
  refine (addf_apply _ _ (ix2 r j)).trans ?_
  refine congrArg₂ (· + ·) ?_ ?_
  · exact Cert.Bridge.matmul_zero_plain dot_S5000x128_S128x128_S5000x128_1_0_0_1_n_n rfl rfl rfl rfl rfl rfl none
      (truncf .bf16 x0 bitsLt_bf16_f32) (truncf .bf16 x1 bitsLt_bf16_f32) r j
  · exact Rank2.bcastRow_apply x2 broadcasts_S1x128_S5000x128 r j

/-- The same at a block whose entries are those of whole arrays X, W, B: entry (r, j) of the store is the
    specification's entry (n, q) when row r of the input block is row n of X, column j of the weight block column q
    of W, and entry j of the bias block entry q of B. -/
theorem point1 (x0 : FVec Ideal S5000x128 .f32) (x1 : FVec Ideal S128x128 .f32) (x2 : FVec Ideal S1x128 .f32)
    (X : Cert.Spec.Arr2 50000 128) (W : Cert.Spec.Arr2 128 128) (B : Cert.Spec.Arr2 1 128)
    (r : Fin 5000) (j : Fin 128) (n : Fin 50000) (q : Fin 128)
    (h0 : ∀ k : Fin 128, x0 (ix2 r k) = X (ix2 n k))
    (h1 : ∀ k : Fin 128, x1 (ix2 k j) = W (ix2 k q))
    (h2 : x2 (ix2 (0 : Fin 1) j) = B (ix2 (0 : Fin 1) q)) :
    out1_3 (F := Ideal) x0 x1 x2 (ix2 r j) = Cert.Spec.nodeLinKAt X W B n q := by
  rw [out1_apply]
  unfold Cert.Spec.nodeLinKAt
  simp only [h0, h1, h2]

/-- The printed index maps, decided over the ten points: the input's block is the output's, the weight's and the
    bias's are block (0, 0), and the output's block at point t is (t, 0). -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- WHAT POINT t WRITES BACK is its block of the specification's array of the region's entry contents. -/
theorem flushed1_eq (c : Dev nD) (t : Fin cfg1.N) :
    (dat1 (F := Ideal) V c).flushed 3 t
      = ((cfg1.win 3).blk t).view.read (Elt Ideal) (Cert.Spec.nodeLinK (V c main_v29) (V c main_arg11) (V c main_v30)) := by
  show (cfg1.win 3).cut (grid1.coords t) ((dat1 (F := Ideal) V c).after 3 t) = _
  rw [after1_3]
  obtain ⟨e0, e1, e2, e3, e4, e5, e6, e7⟩ := idx_facts1 t
  funext y
  have hy : (y : S5000x128.Idx) = ix2 (y 0) (y 1) := eq_ix2 y
  show out1_3 (F := Ideal) (iblk1 V c 0 t) (iblk1 V c 1 t) (iblk1 V c 2 t) y
      = Cert.Spec.nodeLinKAt (V c main_v29) (V c main_arg11) (V c main_v30) ((((cfg1.win 3).blk t).view.emb y) 0) ((((cfg1.win 3).blk t).view.emb y) 1)
  refine (congrArg (out1_3 (F := Ideal) (iblk1 V c 0 t) (iblk1 V c 1 t) (iblk1 V c 2 t)) hy).trans ?_
  refine point1 (iblk1 V c 0 t) (iblk1 V c 1 t) (iblk1 V c 2 t) (V c main_v29) (V c main_arg11) (V c main_v30) (y 0) (y 1)
    ((((cfg1.win 3).blk t).view.emb y) 0) ((((cfg1.win 3).blk t).view.emb y) 1) (fun k => ?_) (fun k => ?_) ?_
  · show V c main_v29 (((cfg1.win 0).blk t).view.emb (ix2 (y 0) k)) = _
    refine congrArg (V c main_v29) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  · show V c main_arg11 (((cfg1.win 1).blk t).view.emb (ix2 k (y 1))) = _
    refine congrArg (V c main_arg11) (funext fun a => Fin.ext ?_)
    match a with
    | ⟨0, _⟩ => show win1_1.index t (0 : Fin 2) * 128 + 1 * k.val = k.val; omega
    | ⟨1, _⟩ => show win1_1.index t (1 : Fin 2) * 128 + 1 * (y 1).val = win1_3.index t (1 : Fin 2) * 128 + 1 * (y 1).val; omega
  · show V c main_v30 (((cfg1.win 2).blk t).view.emb (ix2 (0 : Fin 1) (y 1))) = _
    refine congrArg (V c main_v30) (funext fun a => Fin.ext ?_)
    match a with
    | ⟨0, _⟩ => show win1_2.index t (0 : Fin 2) * 1 + 1 * 0 = 0; omega
    | ⟨1, _⟩ => show win1_2.index t (1 : Fin 2) * 128 + 1 * (y 1).val = win1_3.index t (1 : Fin 2) * 128 + 1 * (y 1).val; omega

end

/-- An index of the result array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

/-- THE COVER: row n of the result lies in the block of point n / 5000, and every point writes back. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY of region 1: the specification's affine map of the region's entry contents. -/
theorem region1 (V : (c : Dev nD) → (b : Ref sig .tc) → Buf (Elt Ideal) ((c : Thread nD τ).loc b)) (c : Dev nD) :
    (dat1 (F := Ideal) V c).arrAt 3 cfg1.N = Cert.Spec.nodeLinK (V c main_v29) (V c main_arg11) (V c main_v30) :=
  (dat1 (F := Ideal) V c).arrAt_eq_of_cover 3 _ (fun t _ => flushed1_eq V c t) cover1

/-! ## Region 3: rows of main_v61 times main_arg17 plus the one row main_v62 -/

/-- THE BODY'S STORE AT (r, j): row r of the input block times column j of the weight block, plus the bias row's
    entry j.  The format changes and the casts of a shape to itself are the identity; the matrix product starts from the
    zero accumulator; the bias row is repeated down the rows. -/
theorem out3_apply (x0 : FVec Ideal S5000x128 .f32) (x1 : FVec Ideal S128x128 .f32) (x2 : FVec Ideal S1x128 .f32)
    (r : Fin 5000) (j : Fin 128) :
    out3_3 (F := Ideal) x0 x1 x2 (ix2 r j) = (∑ k : Fin 128, x0 (ix2 r k) * x1 (ix2 k j)) + x2 (ix2 (0 : Fin 1) j) := by
  unfold out3_3
  rw [View.canon_unit_zero hz]
  simp only [View.ld_unit_zero (S := S5000x128) hz, View.ld_unit_zero (S := S128x128) hz, View.ld_unit_zero (S := S1x128) hz]
  unfold k3_pay1
  simp only [shapeCast_self]
  refine (addf_apply _ _ (ix2 r j)).trans ?_
  refine congrArg₂ (· + ·) ?_ ?_
  · exact Cert.Bridge.matmul_zero_plain dot_S5000x128_S128x128_S5000x128_1_0_0_1_n_n rfl rfl rfl rfl rfl rfl none
      (truncf .bf16 x0 bitsLt_bf16_f32) (truncf .bf16 x1 bitsLt_bf16_f32) r j
  · exact Rank2.bcastRow_apply x2 broadcasts_S1x128_S5000x128 r j

/-- The same at a block whose entries are those of whole arrays X, W, B: entry (r, j) of the store is the
    specification's entry (n, q) when row r of the input block is row n of X, column j of the weight block column q
    of W, and entry j of the bias block entry q of B. -/
theorem point3 (x0 : FVec Ideal S5000x128 .f32) (x1 : FVec Ideal S128x128 .f32) (x2 : FVec Ideal S1x128 .f32)
    (X : Cert.Spec.Arr2 50000 128) (W : Cert.Spec.Arr2 128 128) (B : Cert.Spec.Arr2 1 128)
    (r : Fin 5000) (j : Fin 128) (n : Fin 50000) (q : Fin 128)
    (h0 : ∀ k : Fin 128, x0 (ix2 r k) = X (ix2 n k))
    (h1 : ∀ k : Fin 128, x1 (ix2 k j) = W (ix2 k q))
    (h2 : x2 (ix2 (0 : Fin 1) j) = B (ix2 (0 : Fin 1) q)) :
    out3_3 (F := Ideal) x0 x1 x2 (ix2 r j) = Cert.Spec.nodeLinKAt X W B n q := by
  rw [out3_apply]
  unfold Cert.Spec.nodeLinKAt
  simp only [h0, h1, h2]

/-- The printed index maps, decided over the ten points: the input's block is the output's, the weight's and the
    bias's are block (0, 0), and the output's block at point t is (t, 0). -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

/-- WHAT POINT t WRITES BACK is its block of the specification's array of the region's entry contents. -/
theorem flushed3_eq (c : Dev nD) (t : Fin cfg3.N) :
    (dat3 (F := Ideal) V c).flushed 3 t
      = ((cfg3.win 3).blk t).view.read (Elt Ideal) (Cert.Spec.nodeLinK (V c main_v61) (V c main_arg17) (V c main_v62)) := by
  show (cfg3.win 3).cut (grid3.coords t) ((dat3 (F := Ideal) V c).after 3 t) = _
  rw [after3_3]
  obtain ⟨e0, e1, e2, e3, e4, e5, e6, e7⟩ := idx_facts3 t
  funext y
  have hy : (y : S5000x128.Idx) = ix2 (y 0) (y 1) := eq_ix2 y
  show out3_3 (F := Ideal) (iblk3 V c 0 t) (iblk3 V c 1 t) (iblk3 V c 2 t) y
      = Cert.Spec.nodeLinKAt (V c main_v61) (V c main_arg17) (V c main_v62) ((((cfg3.win 3).blk t).view.emb y) 0) ((((cfg3.win 3).blk t).view.emb y) 1)
  refine (congrArg (out3_3 (F := Ideal) (iblk3 V c 0 t) (iblk3 V c 1 t) (iblk3 V c 2 t)) hy).trans ?_
  refine point3 (iblk3 V c 0 t) (iblk3 V c 1 t) (iblk3 V c 2 t) (V c main_v61) (V c main_arg17) (V c main_v62) (y 0) (y 1)
    ((((cfg3.win 3).blk t).view.emb y) 0) ((((cfg3.win 3).blk t).view.emb y) 1) (fun k => ?_) (fun k => ?_) ?_
  · show V c main_v61 (((cfg3.win 0).blk t).view.emb (ix2 (y 0) k)) = _
    refine congrArg (V c main_v61) (funext fun a => Fin.ext ?_)
    match a with
    | ⟨0, _⟩ => show win3_0.index t (0 : Fin 2) * 5000 + 1 * (y 0).val = win3_3.index t (0 : Fin 2) * 5000 + 1 * (y 0).val; omega
    | ⟨1, _⟩ => show win3_0.index t (1 : Fin 2) * 128 + 1 * k.val = k.val; omega
  · show V c main_arg17 (((cfg3.win 1).blk t).view.emb (ix2 k (y 1))) = _
    refine congrArg (V c main_arg17) (funext fun a => Fin.ext ?_)
    match a with
    | ⟨0, _⟩ => show win3_1.index t (0 : Fin 2) * 128 + 1 * k.val = k.val; omega
    | ⟨1, _⟩ => show win3_1.index t (1 : Fin 2) * 128 + 1 * (y 1).val = win3_3.index t (1 : Fin 2) * 128 + 1 * (y 1).val; omega
  · show V c main_v62 (((cfg3.win 2).blk t).view.emb (ix2 (0 : Fin 1) (y 1))) = _
    refine congrArg (V c main_v62) (funext fun a => Fin.ext ?_)
    match a with
    | ⟨0, _⟩ => show win3_2.index t (0 : Fin 2) * 1 + 1 * 0 = 0; omega
    | ⟨1, _⟩ => show win3_2.index t (1 : Fin 2) * 128 + 1 * (y 1).val = win3_3.index t (1 : Fin 2) * 128 + 1 * (y 1).val; omega

end

/-- An index of the result array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v63).slice (win3_3.rect t)).set ↔ _
  rw [View.set_slice_whole, Rect.mem_set_unit]
  exact Iff.rfl

/-- THE COVER: row n of the result lies in the block of point n / 5000, and every point writes back. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE RESULT ARRAY of region 3: the specification's affine map of the region's entry contents. -/
theorem region3 (V : (c : Dev nD) → (b : Ref sig .tc) → Buf (Elt Ideal) ((c : Thread nD τ).loc b)) (c : Dev nD) :
    (dat3 (F := Ideal) V c).arrAt 3 cfg3.N = Cert.Spec.nodeLinK (V c main_v61) (V c main_arg17) (V c main_v62) :=
  (dat3 (F := Ideal) V c).arrAt_eq_of_cover 3 _ (fun t _ => flushed3_eq V c t) cover3

/-! ## Region 4: rows of main_v64 times main_arg19 plus the one row main_v65, then x ↦ x · σ(x) -/

/-- A product of an array with its logistic, entry by entry, is the activation of the entry. -/
theorem silu_apply {s : Shape} {φ : FTy} (v : FVec Ideal s φ) (i : s.Idx) : mulf v (logistic v) i = Cert.Spec.silu (v i) := rfl

/-- THE BODY'S STORE AT (r, j): the activation of row r of the input block times column j of the weight block plus the
    bias row's entry j. -/
theorem out4_apply (x0 : FVec Ideal S5000x256 .bf16) (x1 : FVec Ideal S256x256 .f32) (x2 : FVec Ideal S1x256 .f32)
    (r : Fin 5000) (j : Fin 256) :
    out4_3 (F := Ideal) x0 x1 x2 (ix2 r j)
      = Cert.Spec.silu ((∑ k : Fin 256, x0 (ix2 r k) * x1 (ix2 k j)) + x2 (ix2 (0 : Fin 1) j)) := by
  unfold out4_3
  rw [View.canon_unit_zero hz]
  simp only [View.ld_unit_zero (S := S5000x256) hz, View.ld_unit_zero (S := S256x256) hz, View.ld_unit_zero (S := S1x256) hz]
  unfold k4_pay1
  simp only [shapeCast_self]
  refine (silu_apply _ (ix2 r j)).trans (congrArg Cert.Spec.silu ?_)
  refine (addf_apply _ _ (ix2 r j)).trans ?_
  refine congrArg₂ (· + ·) ?_ ?_
  · exact Cert.Bridge.matmul_zero_plain dot_S5000x256_S256x256_S5000x256_1_0_0_1_n_n rfl rfl rfl rfl rfl rfl none
      x0 (truncf .bf16 x1 bitsLt_bf16_f32) r j
  · exact Rank2.bcastRow_apply x2 broadcasts_S1x256_S5000x256 r j

/-- The same at a block whose entries are those of whole arrays X, W, B. -/
theorem point4 (x0 : FVec Ideal S5000x256 .bf16) (x1 : FVec Ideal S256x256 .f32) (x2 : FVec Ideal S1x256 .f32)
    (X : Cert.Spec.Arr2 50000 256) (W : Cert.Spec.Arr2 256 256) (B : Cert.Spec.Arr2 1 256)
    (r : Fin 5000) (j : Fin 256) (n : Fin 50000) (q : Fin 256)
    (h0 : ∀ k : Fin 256, x0 (ix2 r k) = X (ix2 n k))
    (h1 : ∀ k : Fin 256, x1 (ix2 k j) = W (ix2 k q))
    (h2 : x2 (ix2 (0 : Fin 1) j) = B (ix2 (0 : Fin 1) q)) :
    out4_3 (F := Ideal) x0 x1 x2 (ix2 r j) = Cert.Spec.cellEmbKAt X W B n q := by
  rw [out4_apply]
  unfold Cert.Spec.cellEmbKAt
  simp only [h0, h1, h2]

/-- The printed index maps, decided over the ten points. -/
theorem idx_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- WHAT POINT t WRITES BACK is its block of the specification's array of the region's entry contents. -/
theorem flushed4_eq (c : Dev nD) (t : Fin cfg4.N) :
    (dat4 (F := Ideal) V c).flushed 3 t
      = ((cfg4.win 3).blk t).view.read (Elt Ideal) (Cert.Spec.cellEmbK (V c main_v64) (V c main_arg19) (V c main_v65)) := by
  show (cfg4.win 3).cut (grid4.coords t) ((dat4 (F := Ideal) V c).after 3 t) = _
  rw [after4_3]
  obtain ⟨e0, e1, e2, e3, e4, e5, e6, e7⟩ := idx_facts4 t
  funext y
  have hy : (y : S5000x256.Idx) = ix2 (y 0) (y 1) := eq_ix2 y
  show out4_3 (F := Ideal) (iblk4 V c 0 t) (iblk4 V c 1 t) (iblk4 V c 2 t) y
      = Cert.Spec.cellEmbKAt (V c main_v64) (V c main_arg19) (V c main_v65) ((((cfg4.win 3).blk t).view.emb y) 0) ((((cfg4.win 3).blk t).view.emb y) 1)
  refine (congrArg (out4_3 (F := Ideal) (iblk4 V c 0 t) (iblk4 V c 1 t) (iblk4 V c 2 t)) hy).trans ?_
  refine point4 (iblk4 V c 0 t) (iblk4 V c 1 t) (iblk4 V c 2 t) (V c main_v64) (V c main_arg19) (V c main_v65) (y 0) (y 1)
    ((((cfg4.win 3).blk t).view.emb y) 0) ((((cfg4.win 3).blk t).view.emb y) 1) (fun k => ?_) (fun k => ?_) ?_
  · show V c main_v64 (((cfg4.win 0).blk t).view.emb (ix2 (y 0) k)) = _
    refine congrArg (V c main_v64) (funext fun a => Fin.ext ?_)
    match a with
    | ⟨0, _⟩ => show win4_0.index t (0 : Fin 2) * 5000 + 1 * (y 0).val = win4_3.index t (0 : Fin 2) * 5000 + 1 * (y 0).val; omega
    | ⟨1, _⟩ => show win4_0.index t (1 : Fin 2) * 256 + 1 * k.val = k.val; omega
  · show V c main_arg19 (((cfg4.win 1).blk t).view.emb (ix2 k (y 1))) = _
    refine congrArg (V c main_arg19) (funext fun a => Fin.ext ?_)
    match a with
    | ⟨0, _⟩ => show win4_1.index t (0 : Fin 2) * 256 + 1 * k.val = k.val; omega
    | ⟨1, _⟩ => show win4_1.index t (1 : Fin 2) * 256 + 1 * (y 1).val = win4_3.index t (1 : Fin 2) * 256 + 1 * (y 1).val; omega
  · show V c main_v65 (((cfg4.win 2).blk t).view.emb (ix2 (0 : Fin 1) (y 1))) = _
    refine congrArg (V c main_v65) (funext fun a => Fin.ext ?_)
    match a with
    | ⟨0, _⟩ => show win4_2.index t (0 : Fin 2) * 1 + 1 * 0 = 0; omega
    | ⟨1, _⟩ => show win4_2.index t (1 : Fin 2) * 256 + 1 * (y 1).val = win4_3.index t (1 : Fin 2) * 256 + 1 * (y 1).val; omega

end

/-- An index of the result array is in point t's block iff each coordinate is in the block's range on its axis. -/
theorem mem_blk4 (t : Fin cfg4.N) (i : S50000x256.Idx) :
    i ∈ ((cfg4.win 3).blk t).view.set ↔ ∀ a : Fin 2, win4_3.index t a * S5000x256.size a ≤ (i a).val
      ∧ (i a).val < win4_3.index t a * S5000x256.size a + S5000x256.size a := by
  show i ∈ ((View.whole main_v66).slice (win4_3.rect t)).set ↔ _
  rw [View.set_slice_whole, Rect.mem_set_unit]
  exact Iff.rfl

/-- THE COVER: row n of the result lies in the block of point n / 5000, and every point writes back. -/
theorem cover4 (i : S50000x256.Idx) : ∃ t : Fin cfg4.N, (cfg4.win 3).flush t = true ∧ i ∈ ((cfg4.win 3).blk t).view.set := by
  have hi0 : (i 0).val < 50000 := (i 0).isLt
  have hi1 : (i 1).val < 256 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0, e1, e2, e3, e4, e5, e6, e7⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 256 ≤ (i 1).val ∧ (i 1).val < win4_3.index t (1 : Fin 2) * 256 + 256; omega

/-- THE RESULT ARRAY of region 4: the specification's activated affine map of the region's entry contents. -/
theorem region4 (V : (c : Dev nD) → (b : Ref sig .tc) → Buf (Elt Ideal) ((c : Thread nD τ).loc b)) (c : Dev nD) :
    (dat4 (F := Ideal) V c).arrAt 3 cfg4.N = Cert.Spec.cellEmbK (V c main_v64) (V c main_arg19) (V c main_v65) :=
  (dat4 (F := Ideal) V c).arrAt_eq_of_cover 3 _ (fun t _ => flushed4_eq V c t) cover4

end Cert.KernelIdeal.LinValue

end
-- ==== Proof.KernelValue.lean ====
/-
  The three results of the idealized kernel program, as the specification's functions of the argument arrays.

  Each result is read off the last boundary's contents by walking back through the segments: a linear kernel's
  output is the affine map of what its windows' arrays held at entry (the aggregate, the weight matrix, the bias
  laid out as a row); the aggregate is the host's scatter-add of the edge kernel's output; that output is the
  two-layer message function of the gathered node features, the edge attributes, the three row blocks of the
  first weight matrix and the biases as rows. Row blocks and one-row layouts are read back to the whole matrix and
  the vectors, which turns the row-block spelling of each stage into the whole-matrix spelling.
-/
import proofs.«138426_j17171279250040_2_alg».proof.Proof.Gen.KernelIdeal.Frame
import proofs.«138426_j17171279250040_2_alg».proof.Proof.Gen.ReferenceIdeal.Read
import proofs.«138426_j17171279250040_2_alg».proof.Proof.KernelKeep
import proofs.«138426_j17171279250040_2_alg».proof.Proof.KernelStages
import proofs.«138426_j17171279250040_2_alg».proof.Proof.Spec
import proofs.«138426_j17171279250040_2_alg».proof.Proof.Results
import proofs.«138426_j17171279250040_2_alg».proof.Proof.EdgeValue
import proofs.«138426_j17171279250040_2_alg».proof.Proof.LinValue

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

open Idealize.ShloMosaic.ValueIdx Cert.Spec Cert.KernelIdeal.KKeep Cert.KernelIdeal.KStage

/-! ## The row-block spelling equals the whole-matrix spelling, with the operands replaced by equal ones -/

theorem edgeMsgK_eq (gd gs : Arr2 500000 64) (ea : Arr2 500000 16) (wa wb : Arr2 64 128) (wc : Arr2 16 128) (b1r : Arr2 1 128)
    (w2 : Arr2 128 128) (b2r : Arr2 1 128) (gd' gs' : Arr2 500000 64) (ea' : Arr2 500000 16) (w1 : Arr2 144 128) (b1 : Arr1 128)
    (w2' : Arr2 128 128) (b2 : Arr1 128) (hgd : gd = gd') (hgs : gs = gs') (hea : ea = ea') (hw2 : w2 = w2')
    (ha : ∀ (k : Fin 64) (j : Fin 128), wa (ix2 k j) = w1 (ix2 (⟨k.val, by omega⟩ : Fin 144) j))
    (hb : ∀ (k : Fin 64) (j : Fin 128), wb (ix2 k j) = w1 (ix2 (⟨64 + k.val, by omega⟩ : Fin 144) j))
    (hc : ∀ (k : Fin 16) (j : Fin 128), wc (ix2 k j) = w1 (ix2 (⟨128 + k.val, by omega⟩ : Fin 144) j))
    (h1 : ∀ j : Fin 128, b1r (ix2 (0 : Fin 1) j) = b1 (ix1 j))
    (h2 : ∀ j : Fin 128, b2r (ix2 (0 : Fin 1) j) = b2 (ix1 j)) :
    edgeMsgK gd gs ea wa wb wc b1r w2 b2r = edgeMsg gd' gs' ea' w1 b1 w2' b2 := by
  subst hgd hgs hea hw2
  exact edgeMsgK_blocks gd gs ea w1 b1 w2 b2 wa wb wc b1r b2r ha hb hc h1 h2

theorem nodeLinK_eq (x : Arr2 50000 128) (w : Arr2 128 128) (br : Arr2 1 128) (x' : Arr2 50000 128) (w' : Arr2 128 128) (b : Arr1 128)
    (hx : x = x') (hw : w = w') (h : ∀ j : Fin 128, br (ix2 (0 : Fin 1) j) = b (ix1 j)) :
    nodeLinK x w br = nodeLin x' w' b := by
  subst hx hw
  exact nodeLinK_row x w b br h

theorem cellEmbK_eq (x : Arr2 50000 256) (w : Arr2 256 256) (br : Arr2 1 256) (x' : Arr2 50000 256) (w' : Arr2 256 256) (b : Arr1 256)
    (hx : x = x') (hw : w = w') (h : ∀ j : Fin 256, br (ix2 (0 : Fin 1) j) = b (ix1 j)) :
    cellEmbK x w br = cellEmb x' w' b := by
  subst hx hw
  exact cellEmbK_row x w b br h

variable (m : (ℓ : Loc nD τ sig) → Buf (Elt Ideal) ℓ) (ρ : Dev nD → PrngReg)

/-! ## The first graph -/

/-- The first edge kernel's output array: every edge's message. -/
theorem W2_v25 (c : Dev nD) : (W2 m ρ c (Proc.devRef .tc main_v25) : Arr2 500000 128)
    = edgeMsg (Cert.ReferenceIdeal.Read.val_main_v10 (F := Ideal) (m ((c : Thread nD τ).loc main_arg0)) (m ((c : Thread nD τ).loc main_arg1))) (Cert.ReferenceIdeal.Read.val_main_v17 (F := Ideal) (m ((c : Thread nD τ).loc main_arg0)) (m ((c : Thread nD τ).loc main_arg1)))
        (m ((c : Thread nD τ).loc main_arg2)) (m ((c : Thread nD τ).loc main_arg7)) (m ((c : Thread nD τ).loc main_arg8)) (m ((c : Thread nD τ).loc main_arg9)) (m ((c : Thread nD τ).loc main_arg10)) :=
  ((W2_arr m ρ c 9).trans (Cert.KernelIdeal.EdgeValue.region0 (V1 m ρ) c)).trans
    (edgeMsgK_eq _ _ _ _ _ _ _ _ _ _ _ _ (m ((c : Thread nD τ).loc main_arg7)) (m ((c : Thread nD τ).loc main_arg8)) _ (m ((c : Thread nD τ).loc main_arg10))
      (V1_v12 m ρ c) (V1_v19 m ρ c) (V1_v5 m ρ c) (V1_arg9 m ρ c)
      (fun k j => (congrFun (V1_v20 m ρ c) (ix2 k j)).trans (rowBlock_apply _ _ k j _ (by show k.val = 0 + k.val; omega)))
      (fun k j => (congrFun (V1_v21 m ρ c) (ix2 k j)).trans (rowBlock_apply _ _ k j _ rfl))
      (fun k j => (congrFun (V1_v22 m ρ c) (ix2 k j)).trans (rowBlock_apply _ _ k j _ rfl))
      (fun j => (congrFun (V1_v23 m ρ c) (ix2 (0 : Fin 1) j)).trans (asRow_apply _ _ j))
      (fun j => (congrFun (V1_v24 m ρ c) (ix2 (0 : Fin 1) j)).trans (asRow_apply _ _ j)))

/-- The first result: the node update of the messages added into their target nodes. -/
theorem out0 (c : Dev nD) : (W10 m ρ c (Proc.devRef .tc main_v31) : Arr2 50000 128)
    = Cert.Results.resH0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Cert.Results.resH0
  exact (((W10_v31 m ρ c).trans (W4_arr m ρ c 3)).trans (Cert.KernelIdeal.LinValue.region1 (V3 m ρ) c)).trans
    (nodeLinK_eq _ _ _ _ _ (m ((c : Thread nD τ).loc main_arg12)) (V3_v29 m ρ c _ (W2_v25 m ρ c)) (V3_arg11 m ρ c)
      (fun j => (congrFun (V3_v30 m ρ c) (ix2 (0 : Fin 1) j)).trans (asRow_apply _ _ j)))

/-! ## The second graph -/

theorem W6_v57 (c : Dev nD) : (W6 m ρ c (Proc.devRef .tc main_v57) : Arr2 500000 128)
    = edgeMsg (Cert.ReferenceIdeal.Read.val_main_v47 (F := Ideal) (m ((c : Thread nD τ).loc main_arg3)) (m ((c : Thread nD τ).loc main_arg4))) (Cert.ReferenceIdeal.Read.val_main_v54 (F := Ideal) (m ((c : Thread nD τ).loc main_arg3)) (m ((c : Thread nD τ).loc main_arg4)))
        (m ((c : Thread nD τ).loc main_arg5)) (m ((c : Thread nD τ).loc main_arg13)) (m ((c : Thread nD τ).loc main_arg14)) (m ((c : Thread nD τ).loc main_arg15)) (m ((c : Thread nD τ).loc main_arg16)) :=
  ((W6_arr m ρ c 9).trans (Cert.KernelIdeal.EdgeValue.region2 (V5 m ρ) c)).trans
    (edgeMsgK_eq _ _ _ _ _ _ _ _ _ _ _ _ (m ((c : Thread nD τ).loc main_arg13)) (m ((c : Thread nD τ).loc main_arg14)) _ (m ((c : Thread nD τ).loc main_arg16))
      (V5_v44 m ρ c) (V5_v51 m ρ c) (V5_v37 m ρ c) (V5_arg15 m ρ c)
      (fun k j => (congrFun (V5_v52 m ρ c) (ix2 k j)).trans (rowBlock_apply _ _ k j _ (by show k.val = 0 + k.val; omega)))
      (fun k j => (congrFun (V5_v53 m ρ c) (ix2 k j)).trans (rowBlock_apply _ _ k j _ rfl))
      (fun k j => (congrFun (V5_v54 m ρ c) (ix2 k j)).trans (rowBlock_apply _ _ k j _ rfl))
      (fun j => (congrFun (V5_v55 m ρ c) (ix2 (0 : Fin 1) j)).trans (asRow_apply _ _ j))
      (fun j => (congrFun (V5_v56 m ρ c) (ix2 (0 : Fin 1) j)).trans (asRow_apply _ _ j)))

theorem out1 (c : Dev nD) : (W10 m ρ c (Proc.devRef .tc main_v63) : Arr2 50000 128)
    = Cert.Results.resH1 (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold Cert.Results.resH1
  exact (((W10_v63 m ρ c).trans (W8_arr m ρ c 3)).trans (Cert.KernelIdeal.LinValue.region3 (V7 m ρ) c)).trans
    (nodeLinK_eq _ _ _ _ _ (m ((c : Thread nD τ).loc main_arg18)) (V7_v61 m ρ c _ (W6_v57 m ρ c)) (V7_arg17 m ρ c)
      (fun j => (congrFun (V7_v62 m ρ c) (ix2 (0 : Fin 1) j)).trans (asRow_apply _ _ j)))

/-! ## The cell embedding -/

theorem out2 (c : Dev nD) : (W10 m ρ c (Proc.devRef .tc main_v66) : Arr2 50000 256)
    = Cert.Results.resC (m ((c : Thread nD τ).loc main_arg6)) (m ((c : Thread nD τ).loc main_arg19)) (m ((c : Thread nD τ).loc main_arg20)) := by
  unfold Cert.Results.resC
  exact ((W10_arr m ρ c 3).trans (Cert.KernelIdeal.LinValue.region4 (V9 m ρ) c)).trans
    (cellEmbK_eq _ _ _ _ _ (m ((c : Thread nD τ).loc main_arg20)) (V9_v64 m ρ c) (V9_arg19 m ρ c)
      (fun j => (congrFun (V9_v65 m ρ c) (ix2 (0 : Fin 1) j)).trans (asRow_apply _ _ j)))

end Cert.KernelIdeal.KValue

end
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.RefValue.lean ====
/-
  The reference program's five results, stage by stage, as the mathematics of the shared specification.

  Per graph: an edge's input row is the concatenation (target features, source features, edge attributes); its product
  with the 144-row weight matrix splits into the three partial products over columns 0–63, 64–127 and 128–143 (only
  commutativity and associativity of + are used); the activation is spelled x · (1 / (1 + e^(-x))), which is
  x · σ(x) by the definition of the logistic function on the extended reals. The gathered rows and the scattered sums
  are kept as they are: both sides of each statement mention the same arrays.
-/
import proofs.«138426_j17171279250040_2_alg».proof.Proof.Gen.ReferenceIdeal.Read
import proofs.«138426_j17171279250040_2_alg».proof.Proof.Spec
import proofs.«138426_j17171279250040_2_alg».proof.Proof.LibLogisticTanh
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx

/-- x · (1 / (1 + e^(-x))), with 1 written as its f32 pattern, is the activation x · σ(x): the quotient is the
    logistic function by definition. -/
theorem silu_spelling (x : EReal) :
    x * Ideal.div (Ideal.ofBits .f32 0x3F800000#32) (Ideal.ofBits .f32 0x3F800000#32 + Ideal.exp (-x)) = Cert.Spec.silu x := by
  rw [Cert.LibLogisticTanh.exp_spelling_f32]; rfl

/-- A sum over 144 = 64 + 64 + 16 indices is the sum of its three consecutive stretches. -/
theorem sum144_split (f : Fin 144 → EReal) :
    ∑ k : Fin 144, f k = (∑ k : Fin 64, f ⟨k.val, by omega⟩ + ∑ k : Fin 64, f ⟨64 + k.val, by omega⟩)
      + ∑ k : Fin 16, f ⟨128 + k.val, by omega⟩ := by
  have e : ∑ k : Fin 144, f k = ∑ k : Fin (64 + 64 + 16), f (Fin.cast rfl k) :=
    (Fin.sum_congr' f (show 64 + 64 + 16 = 144 from rfl)).symm
  rw [e, Fin.sum_univ_add, Fin.sum_univ_add]
  rfl

section Concat
variable {α : Type}

/-- Columns 0–63 of the row-wise concatenation of three matrices are the first matrix. -/
theorem concat_lo (gd gs : S500000x64.Idx → α) (ea : S500000x16.Idx → α)
    (h : Shape.Concatenates [S500000x64, S500000x64, S500000x16] S500000x144 1) (e : Fin 500000) (k : Fin 64) :
    concatenate S500000x144 1 [⟨S500000x64, gd⟩, ⟨S500000x64, gs⟩, ⟨S500000x16, ea⟩] h
      (ix2 e (⟨k.val, by omega⟩ : Fin 144)) = gd (ix2 e k) := by
  refine concatenate_apply_piece (t := S500000x144) 1 [⟨S500000x64, gd⟩, ⟨S500000x64, gs⟩, ⟨S500000x16, ea⟩] h _ 0 (by simp) S500000x64 gd rfl rfl 0 rfl (ix2 e k) ?_ ?_
  · intro b hb
    match b, hb with
    | ⟨0, _⟩, _ => rfl
    | ⟨1, _⟩, hb => exact absurd rfl hb
  · exact Nat.zero_add _

/-- Columns 64–127 are the second matrix. -/
theorem concat_mid (gd gs : S500000x64.Idx → α) (ea : S500000x16.Idx → α)
    (h : Shape.Concatenates [S500000x64, S500000x64, S500000x16] S500000x144 1) (e : Fin 500000) (k : Fin 64) :
    concatenate S500000x144 1 [⟨S500000x64, gd⟩, ⟨S500000x64, gs⟩, ⟨S500000x16, ea⟩] h
      (ix2 e (⟨64 + k.val, by omega⟩ : Fin 144)) = gs (ix2 e k) := by
  refine concatenate_apply_piece (t := S500000x144) 1 [⟨S500000x64, gd⟩, ⟨S500000x64, gs⟩, ⟨S500000x16, ea⟩] h _ 1 (by simp) S500000x64 gs rfl rfl 64 rfl (ix2 e k) ?_ ?_
  · intro b hb
    match b, hb with
    | ⟨0, _⟩, _ => rfl
    | ⟨1, _⟩, hb => exact absurd rfl hb
  · rfl

/-- Columns 128–143 are the third matrix. -/
theorem concat_hi (gd gs : S500000x64.Idx → α) (ea : S500000x16.Idx → α)
    (h : Shape.Concatenates [S500000x64, S500000x64, S500000x16] S500000x144 1) (e : Fin 500000) (k : Fin 16) :
    concatenate S500000x144 1 [⟨S500000x64, gd⟩, ⟨S500000x64, gs⟩, ⟨S500000x16, ea⟩] h
      (ix2 e (⟨128 + k.val, by omega⟩ : Fin 144)) = ea (ix2 e k) := by
  refine concatenate_apply_piece (t := S500000x144) 1 [⟨S500000x64, gd⟩, ⟨S500000x64, gs⟩, ⟨S500000x16, ea⟩] h _ 2 (by simp) S500000x16 ea rfl rfl 128 rfl (ix2 e k) ?_ ?_
  · intro b hb
    match b, hb with
    | ⟨0, _⟩, _ => rfl
    | ⟨1, _⟩, hb => exact absurd rfl hb
  · rfl

end Concat

/-! ## The first graph -/

section Graph0
variable (x0 : (⟨S50000x64, .f32⟩ : BufTy).Contents (Elt Ideal)) (x1 : (⟨S2x500000, .i32⟩ : BufTy).Contents (Elt Ideal))
  (x2 : (⟨S500000x16, .f32⟩ : BufTy).Contents (Elt Ideal)) (x7 : (⟨S144x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))

/-- The first layer before its activation, at edge `e` and unit `j`: the product of the concatenated row with column
    `j` of the 144-row matrix is the sum of the three partial products over columns 0–63, 64–127 and 128–143, where
    the concatenation reads the target features, the source features and the edge attributes. -/
theorem lin0a (e : Fin 500000) (j : Fin 128) :
    val_main_v22 (F := Ideal) x0 x1 x2 x7 x8 (ix2 e j)
      = ((∑ k : Fin 64, val_main_v10 (F := Ideal) x0 x1 (ix2 e k) * x7 (ix2 (⟨k.val, by omega⟩ : Fin 144) j)
        + ∑ k : Fin 64, val_main_v17 (F := Ideal) x0 x1 (ix2 e k) * x7 (ix2 (⟨64 + k.val, by omega⟩ : Fin 144) j))
        + ∑ k : Fin 16, x2 (ix2 e k) * x7 (ix2 (⟨128 + k.val, by omega⟩ : Fin 144) j))
        + x8 (ix1 j) := by
  have el : ∀ k : Fin 144, lidx_main_v19 (ix2 e j) k = ix2 e k := fun k =>
    funext fun a => Fin.ext (by match a with | ⟨0, _⟩ => rfl | ⟨1, _⟩ => rfl)
  have er : ∀ k : Fin 144, ridx_main_v19 (ix2 e j) k = ix2 k j := fun k =>
    funext fun a => Fin.ext (by match a with | ⟨0, _⟩ => rfl | ⟨1, _⟩ => rfl)
  have eb : idx_main_v20 (idx_main_v21 (ix2 e j)) = ix1 j :=
    funext fun a => Fin.ext (by match a with | ⟨0, _⟩ => rfl)
  rw [val_main_v22_apply, val_main_v19_apply, val_main_v21_apply, val_main_v20_apply, eb, Ideal.addf_def]
  simp only [el, er]
  unfold val_main_v18
  generalize val_main_v10 (F := Ideal) x0 x1 = gd
  generalize val_main_v17 (F := Ideal) x0 x1 = gs
  rw [sum144_split]
  simp only [concat_lo, concat_mid, concat_hi]

/-- The hidden layer at edge `e` and unit `j`: the activation of the first layer. -/
theorem hidden0 (e : Fin 500000) (j : Fin 128) :
    val_main_v23 (F := Ideal) x0 x1 x2 x7 x8 (ix2 e j)
      = Cert.Spec.hiddenAt (val_main_v10 (F := Ideal) x0 x1) (val_main_v17 (F := Ideal) x0 x1) x2 x7 x8 e j := by
  simp only [val_main_v23_apply, val_main_call0_v5_apply, val_main_call0_v4_apply, val_main_call0_cst_0_apply,
    val_main_call0_v3_apply, val_main_call0_v2_apply, val_main_call0_cst_apply, val_main_call0_v1_apply,
    val_main_call0_v0_apply, Ideal.mulf_def, Ideal.hostDivf_def, Ideal.addf_def, Ideal.hostUnary_exp_def,
    Ideal.hostNegf_def, Ideal.negf_def, Ideal.ofBits_def]
  rw [silu_spelling, lin0a]
  rfl

/-- The second layer before its activations, at edge `e` and unit `j`: the hidden row times column `j`, plus the bias. -/
theorem lin0b (e : Fin 500000) (j : Fin 128) :
    val_main_v27 (F := Ideal) x0 x1 x2 x7 x8 x9 x10 (ix2 e j)
      = (∑ k : Fin 128, Cert.Spec.hiddenAt (val_main_v10 (F := Ideal) x0 x1) (val_main_v17 (F := Ideal) x0 x1) x2 x7 x8 e k
          * x9 (ix2 k j)) + x10 (ix1 j) := by
  have el : ∀ k : Fin 128, lidx_main_v24 (ix2 e j) k = ix2 e k := fun k =>
    funext fun a => Fin.ext (by match a with | ⟨0, _⟩ => rfl | ⟨1, _⟩ => rfl)
  have er : ∀ k : Fin 128, ridx_main_v24 (ix2 e j) k = ix2 k j := fun k =>
    funext fun a => Fin.ext (by match a with | ⟨0, _⟩ => rfl | ⟨1, _⟩ => rfl)
  have eb : idx_main_v25 (idx_main_v26 (ix2 e j)) = ix1 j :=
    funext fun a => Fin.ext (by match a with | ⟨0, _⟩ => rfl)
  rw [val_main_v27_apply, val_main_v24_apply, val_main_v26_apply, val_main_v25_apply, eb, Ideal.addf_def]
  simp only [el, er, hidden0]

/-- The messages: the second layer activated twice. -/
theorem msg0 :
    val_main_v29 (F := Ideal) x0 x1 x2 x7 x8 x9 x10
      = Cert.Spec.edgeMsg (val_main_v10 (F := Ideal) x0 x1) (val_main_v17 (F := Ideal) x0 x1) x2 x7 x8 x9 x10 := by
  funext i
  obtain ⟨e, j, rfl⟩ : ∃ (e : Fin 500000) (j : Fin 128), i = ix2 e j := ⟨i 0, i 1, eq_ix2 i⟩
  show _ = Cert.Spec.edgeMsgAt (val_main_v10 (F := Ideal) x0 x1) (val_main_v17 (F := Ideal) x0 x1) x2 x7 x8 x9 x10 e j
  simp only [val_main_v29_apply, val_main_call2_v5_apply, val_main_call2_v4_apply, val_main_call2_cst_0_apply,
    val_main_call2_v3_apply, val_main_call2_v2_apply, val_main_call2_cst_apply, val_main_call2_v1_apply,
    val_main_call2_v0_apply, Ideal.mulf_def, Ideal.hostDivf_def, Ideal.addf_def, Ideal.hostUnary_exp_def,
    Ideal.hostNegf_def, Ideal.negf_def, Ideal.ofBits_def]
  rw [silu_spelling]
  simp only [val_main_v28_apply, val_main_call1_v5_apply, val_main_call1_v4_apply, val_main_call1_cst_0_apply,
    val_main_call1_v3_apply, val_main_call1_v2_apply, val_main_call1_cst_apply, val_main_call1_v1_apply,
    val_main_call1_v0_apply, Ideal.mulf_def, Ideal.hostDivf_def, Ideal.addf_def, Ideal.hostUnary_exp_def,
    Ideal.hostNegf_def, Ideal.negf_def, Ideal.ofBits_def]
  rw [silu_spelling, lin0b]
  rfl

/-- The node update: the aggregate's row times column `j`, plus the bias. -/
theorem out0 :
    val_main_v36 (F := Ideal) x0 x1 x2 x7 x8 x9 x10 x11 x12
      = Cert.Spec.nodeLin (val_main_v32 (F := Ideal) x0 x1 x2 x7 x8 x9 x10) x11 x12 := by
  funext i
  obtain ⟨n, j, rfl⟩ : ∃ (n : Fin 50000) (j : Fin 128), i = ix2 n j := ⟨i 0, i 1, eq_ix2 i⟩
  show _ = Cert.Spec.nodeLinAt (val_main_v32 (F := Ideal) x0 x1 x2 x7 x8 x9 x10) x11 x12 n j
  have el : ∀ k : Fin 128, lidx_main_v33 (ix2 n j) k = ix2 n k := fun k =>
    funext fun a => Fin.ext (by match a with | ⟨0, _⟩ => rfl | ⟨1, _⟩ => rfl)
  have er : ∀ k : Fin 128, ridx_main_v33 (ix2 n j) k = ix2 k j := fun k =>
    funext fun a => Fin.ext (by match a with | ⟨0, _⟩ => rfl | ⟨1, _⟩ => rfl)
  have eb : idx_main_v34 (idx_main_v35 (ix2 n j)) = ix1 j :=
    funext fun a => Fin.ext (by match a with | ⟨0, _⟩ => rfl)
  rw [val_main_v36_apply, val_main_v33_apply, val_main_v35_apply, val_main_v34_apply, eb, Ideal.addf_def]
  generalize val_main_v32 (F := Ideal) x0 x1 x2 x7 x8 x9 x10 = agg
  simp only [el, er]
  rfl

end Graph0

/-! ## The second graph: the first with its own inputs -/

section Graph1
variable (x3 : (⟨S50000x64, .f32⟩ : BufTy).Contents (Elt Ideal)) (x4 : (⟨S2x500000, .i32⟩ : BufTy).Contents (Elt Ideal))
  (x5 : (⟨S500000x16, .f32⟩ : BufTy).Contents (Elt Ideal)) (x13 : (⟨S144x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal))

/-- The first layer before its activation, at edge `e` and unit `j`: the product of the concatenated row with column
    `j` of the 144-row matrix is the sum of the three partial products over columns 0–63, 64–127 and 128–143, where
    the concatenation reads the target features, the source features and the edge attributes. -/
theorem lin1a (e : Fin 500000) (j : Fin 128) :
    val_main_v59 (F := Ideal) x3 x4 x5 x13 x14 (ix2 e j)
      = ((∑ k : Fin 64, val_main_v47 (F := Ideal) x3 x4 (ix2 e k) * x13 (ix2 (⟨k.val, by omega⟩ : Fin 144) j)
        + ∑ k : Fin 64, val_main_v54 (F := Ideal) x3 x4 (ix2 e k) * x13 (ix2 (⟨64 + k.val, by omega⟩ : Fin 144) j))
        + ∑ k : Fin 16, x5 (ix2 e k) * x13 (ix2 (⟨128 + k.val, by omega⟩ : Fin 144) j))
        + x14 (ix1 j) := by
  have el : ∀ k : Fin 144, lidx_main_v56 (ix2 e j) k = ix2 e k := fun k =>
    funext fun a => Fin.ext (by match a with | ⟨0, _⟩ => rfl | ⟨1, _⟩ => rfl)
  have er : ∀ k : Fin 144, ridx_main_v56 (ix2 e j) k = ix2 k j := fun k =>
    funext fun a => Fin.ext (by match a with | ⟨0, _⟩ => rfl | ⟨1, _⟩ => rfl)
  have eb : idx_main_v57 (idx_main_v58 (ix2 e j)) = ix1 j :=
    funext fun a => Fin.ext (by match a with | ⟨0, _⟩ => rfl)
  rw [val_main_v59_apply, val_main_v56_apply, val_main_v58_apply, val_main_v57_apply, eb, Ideal.addf_def]
  simp only [el, er]
  unfold val_main_v55
  generalize val_main_v47 (F := Ideal) x3 x4 = gd
  generalize val_main_v54 (F := Ideal) x3 x4 = gs
  rw [sum144_split]
  simp only [concat_lo, concat_mid, concat_hi]

/-- The hidden layer at edge `e` and unit `j`: the activation of the first layer. -/
theorem hidden1 (e : Fin 500000) (j : Fin 128) :
    val_main_v60 (F := Ideal) x3 x4 x5 x13 x14 (ix2 e j)
      = Cert.Spec.hiddenAt (val_main_v47 (F := Ideal) x3 x4) (val_main_v54 (F := Ideal) x3 x4) x5 x13 x14 e j := by
  simp only [val_main_v60_apply, val_main_call3_v5_apply, val_main_call3_v4_apply, val_main_call3_cst_0_apply,
    val_main_call3_v3_apply, val_main_call3_v2_apply, val_main_call3_cst_apply, val_main_call3_v1_apply,
    val_main_call3_v0_apply, Ideal.mulf_def, Ideal.hostDivf_def, Ideal.addf_def, Ideal.hostUnary_exp_def,
    Ideal.hostNegf_def, Ideal.negf_def, Ideal.ofBits_def]
  rw [silu_spelling, lin1a]
  rfl

/-- The second layer before its activations, at edge `e` and unit `j`: the hidden row times column `j`, plus the bias. -/
theorem lin1b (e : Fin 500000) (j : Fin 128) :
    val_main_v64 (F := Ideal) x3 x4 x5 x13 x14 x15 x16 (ix2 e j)
      = (∑ k : Fin 128, Cert.Spec.hiddenAt (val_main_v47 (F := Ideal) x3 x4) (val_main_v54 (F := Ideal) x3 x4) x5 x13 x14 e k
          * x15 (ix2 k j)) + x16 (ix1 j) := by
  have el : ∀ k : Fin 128, lidx_main_v61 (ix2 e j) k = ix2 e k := fun k =>
    funext fun a => Fin.ext (by match a with | ⟨0, _⟩ => rfl | ⟨1, _⟩ => rfl)
  have er : ∀ k : Fin 128, ridx_main_v61 (ix2 e j) k = ix2 k j := fun k =>
    funext fun a => Fin.ext (by match a with | ⟨0, _⟩ => rfl | ⟨1, _⟩ => rfl)
  have eb : idx_main_v62 (idx_main_v63 (ix2 e j)) = ix1 j :=
    funext fun a => Fin.ext (by match a with | ⟨0, _⟩ => rfl)
  rw [val_main_v64_apply, val_main_v61_apply, val_main_v63_apply, val_main_v62_apply, eb, Ideal.addf_def]
  simp only [el, er, hidden1]

/-- The messages: the second layer activated twice. -/
theorem msg1 :
    val_main_v66 (F := Ideal) x3 x4 x5 x13 x14 x15 x16
      = Cert.Spec.edgeMsg (val_main_v47 (F := Ideal) x3 x4) (val_main_v54 (F := Ideal) x3 x4) x5 x13 x14 x15 x16 := by
  funext i
  obtain ⟨e, j, rfl⟩ : ∃ (e : Fin 500000) (j : Fin 128), i = ix2 e j := ⟨i 0, i 1, eq_ix2 i⟩
  show _ = Cert.Spec.edgeMsgAt (val_main_v47 (F := Ideal) x3 x4) (val_main_v54 (F := Ideal) x3 x4) x5 x13 x14 x15 x16 e j
  simp only [val_main_v66_apply, val_main_call5_v5_apply, val_main_call5_v4_apply, val_main_call5_cst_0_apply,
    val_main_call5_v3_apply, val_main_call5_v2_apply, val_main_call5_cst_apply, val_main_call5_v1_apply,
    val_main_call5_v0_apply, Ideal.mulf_def, Ideal.hostDivf_def, Ideal.addf_def, Ideal.hostUnary_exp_def,
    Ideal.hostNegf_def, Ideal.negf_def, Ideal.ofBits_def]
  rw [silu_spelling]
  simp only [val_main_v65_apply, val_main_call4_v5_apply, val_main_call4_v4_apply, val_main_call4_cst_0_apply,
    val_main_call4_v3_apply, val_main_call4_v2_apply, val_main_call4_cst_apply, val_main_call4_v1_apply,
    val_main_call4_v0_apply, Ideal.mulf_def, Ideal.hostDivf_def, Ideal.addf_def, Ideal.hostUnary_exp_def,
    Ideal.hostNegf_def, Ideal.negf_def, Ideal.ofBits_def]
  rw [silu_spelling, lin1b]
  rfl

/-- The node update: the aggregate's row times column `j`, plus the bias. -/
theorem out1 :
    val_main_v73 (F := Ideal) x3 x4 x5 x13 x14 x15 x16 x17 x18
      = Cert.Spec.nodeLin (val_main_v69 (F := Ideal) x3 x4 x5 x13 x14 x15 x16) x17 x18 := by
  funext i
  obtain ⟨n, j, rfl⟩ : ∃ (n : Fin 50000) (j : Fin 128), i = ix2 n j := ⟨i 0, i 1, eq_ix2 i⟩
  show _ = Cert.Spec.nodeLinAt (val_main_v69 (F := Ideal) x3 x4 x5 x13 x14 x15 x16) x17 x18 n j
  have el : ∀ k : Fin 128, lidx_main_v70 (ix2 n j) k = ix2 n k := fun k =>
    funext fun a => Fin.ext (by match a with | ⟨0, _⟩ => rfl | ⟨1, _⟩ => rfl)
  have er : ∀ k : Fin 128, ridx_main_v70 (ix2 n j) k = ix2 k j := fun k =>
    funext fun a => Fin.ext (by match a with | ⟨0, _⟩ => rfl | ⟨1, _⟩ => rfl)
  have eb : idx_main_v71 (idx_main_v72 (ix2 n j)) = ix1 j :=
    funext fun a => Fin.ext (by match a with | ⟨0, _⟩ => rfl)
  rw [val_main_v73_apply, val_main_v70_apply, val_main_v72_apply, val_main_v71_apply, eb, Ideal.addf_def]
  generalize val_main_v69 (F := Ideal) x3 x4 x5 x13 x14 x15 x16 = agg
  simp only [el, er]
  rfl

end Graph1

/-! ## The cell embedding -/

/-- The cell embedding: an affine map of the cell features, activated. -/
theorem out2 (x6 : (⟨S50000x256, .f32⟩ : BufTy).Contents (Elt Ideal)) (x19 : (⟨S256x256, .f32⟩ : BufTy).Contents (Elt Ideal))
    (x20 : (⟨S256, .f32⟩ : BufTy).Contents (Elt Ideal)) :
    val_main_v78 (F := Ideal) x6 x19 x20 = Cert.Spec.cellEmb x6 x19 x20 := by
  funext i
  obtain ⟨n, j, rfl⟩ : ∃ (n : Fin 50000) (j : Fin 256), i = ix2 n j := ⟨i 0, i 1, eq_ix2 i⟩
  show _ = Cert.Spec.cellEmbAt x6 x19 x20 n j
  have el : ∀ k : Fin 256, lidx_main_v74 (ix2 n j) k = ix2 n k := fun k =>
    funext fun a => Fin.ext (by match a with | ⟨0, _⟩ => rfl | ⟨1, _⟩ => rfl)
  have er : ∀ k : Fin 256, ridx_main_v74 (ix2 n j) k = ix2 k j := fun k =>
    funext fun a => Fin.ext (by match a with | ⟨0, _⟩ => rfl | ⟨1, _⟩ => rfl)
  have eb : idx_main_v75 (idx_main_v76 (ix2 n j)) = ix1 j :=
    funext fun a => Fin.ext (by match a with | ⟨0, _⟩ => rfl)
  simp only [val_main_v78_apply, val_main_call6_v5_apply, val_main_call6_v4_apply, val_main_call6_cst_0_apply,
    val_main_call6_v3_apply, val_main_call6_v2_apply, val_main_call6_cst_apply, val_main_call6_v1_apply,
    val_main_call6_v0_apply, Ideal.mulf_def, Ideal.hostDivf_def, Ideal.addf_def, Ideal.hostUnary_exp_def,
    Ideal.hostNegf_def, Ideal.negf_def, Ideal.ofBits_def]
  rw [silu_spelling]
  unfold Cert.Spec.cellEmbAt
  congr 1
  rw [val_main_v77_apply, val_main_v74_apply, val_main_v76_apply, val_main_v75_apply, eb]
  simp only [el, er, Ideal.addf_def]

end Cert.ReferenceIdeal.RefValue

end
-- ==== Proof.RefRun.lean ====
/-
  The reference program's run, with its three results stated as the specification's stages composed with the
  program's own gathers, index vectors and scatter-adds: every weakly fair execution terminates with the two node
  updates and the cell embedding in the result buffers and the arguments unchanged.
-/
import proofs.«138426_j17171279250040_2_alg».proof.Proof.Gen.ReferenceIdeal.Read
import proofs.«138426_j17171279250040_2_alg».proof.Proof.RefValue
import proofs.«138426_j17171279250040_2_alg».proof.Proof.Results

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The first graph's result term is the node update of the scatter-added messages. -/
theorem res0_eq (m : (ℓ : Loc nD τ sig) → Buf (Elt Ideal) ℓ) (c : Dev nD) :
    Cert.ReferenceIdeal.Value.res_main_v36 m c = Cert.Results.resH0 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (Read.val_main_v36_eq m c).trans ((RefValue.out0 _ _ _ _ _ _ _ _ _).trans (by
    unfold Cert.Results.resH0 Read.val_main_v32
    rw [RefValue.msg0]))

/-- The second graph's result term likewise. -/
theorem res1_eq (m : (ℓ : Loc nD τ sig) → Buf (Elt Ideal) ℓ) (c : Dev nD) :
    Cert.ReferenceIdeal.Value.res_main_v73 m c = Cert.Results.resH1 (m ((c.tc : Thread nD τ).loc main_arg3)) (m ((c.tc : Thread nD τ).loc main_arg4)) (m ((c.tc : Thread nD τ).loc main_arg5)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (Read.val_main_v73_eq m c).trans ((RefValue.out1 _ _ _ _ _ _ _ _ _).trans (by
    unfold Cert.Results.resH1 Read.val_main_v69
    rw [RefValue.msg1]))

/-- The reference's run with its results as the specification's stages. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = Cert.Results.resH0 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v73) = Cert.Results.resH1 (m ((c.tc : Thread nD τ).loc main_arg3)) (m ((c.tc : Thread nD τ).loc main_arg4)) (m ((c.tc : Thread nD τ).loc main_arg5)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v78) = Cert.Results.resC (m ((c.tc : Thread nD τ).loc main_arg6)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (res0_eq m c), (h c).2.1.trans (res1_eq m c),
      (h c).2.2.1.trans ((Read.val_main_v78_eq _ _ _).trans (RefValue.out2 _ _ _)), (h c).2.2.2⟩)
    (Cert.ReferenceIdeal.Value.run (F := Ideal) m ρ)

end Cert.ReferenceIdeal.RefRun

end
-- ==== Proof.lean ====
/-
  Two programs compute three arrays from two graphs and a table of cell features. For each graph: every edge's message
  is a two-layer perceptron (activation x · σ(x), applied once after the first layer and twice after the second) of
  the features of its target node, the features of its source node and its own attributes; the messages are added
  into their target nodes; each node's sum goes through an affine map. Third array: an affine map of the cell features,
  activated. The kernel program runs the perceptron, the node update and the cell embedding as five kernel regions
  (the first weight matrix cut into three row blocks, one product per block, the biases as one-row matrices) with the
  gathers and the scatter-add on the host between them; the reference does everything on the host, multiplying
  the concatenated row by the whole weight matrix.

  On the extended reals both programs end at the same three functions of the arguments (Results.lean, over the
  stage functions of Spec.lean): a product with a concatenation is the sum of the block products — only the
  commutativity and associativity of addition are used, so the inputs' finiteness is never needed —, the changes of
  float format are the identity, and σ is one function whether it is an operation or spelt 1 / (1 + e^(-x)).
  The gathers, the index arithmetic and the scatter-add are the same host operations in both programs and are never
  opened. The three frames are the generated ones (the reference's is its generated run with the results dropped);
  the idealization rewrote nothing.
-/
import proofs.«138426_j17171279250040_2_alg».proof.Defs
import proofs.«138426_j17171279250040_2_alg».proof.Proof.Gen.Kernel
import proofs.«138426_j17171279250040_2_alg».proof.Proof.Gen.Kernel.Frame
import proofs.«138426_j17171279250040_2_alg».proof.Proof.Gen.KernelIdeal
import proofs.«138426_j17171279250040_2_alg».proof.Proof.Gen.KernelIdeal.Frame
import proofs.«138426_j17171279250040_2_alg».proof.Proof.Gen.ReferenceIdeal
import proofs.«138426_j17171279250040_2_alg».proof.Proof.Gen.Pre_finite_inputs
import proofs.«138426_j17171279250040_2_alg».proof.Proof.Gen.ReferenceIdeal.Run
import proofs.«138426_j17171279250040_2_alg».proof.Proof.Gen.ReferenceIdeal.Read
import proofs.«138426_j17171279250040_2_alg».proof.Proof.Results
import proofs.«138426_j17171279250040_2_alg».proof.Proof.KernelRun
import proofs.«138426_j17171279250040_2_alg».proof.Proof.KernelValue
import proofs.«138426_j17171279250040_2_alg».proof.Proof.RefRun

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the three results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories agreeing on the arguments both programs end with the three results of Results.lean at the
    kernel program's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Results.resH0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Results.resH1 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.Results.resC (m ((c.tc : Thread Cert.KernelIdeal.nD Cert.KernelIdeal.τ).loc Cert.KernelIdeal.main_arg6)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono (fun r h c =>
      ⟨(h c _ (Cert.KernelIdeal.Gen.mem_uc Cert.KernelIdeal.main_v31 (by decide))).trans (Cert.KernelIdeal.KValue.out0 m ρ c),
      (h c _ (Cert.KernelIdeal.Gen.mem_uc Cert.KernelIdeal.main_v63 (by decide))).trans (Cert.KernelIdeal.KValue.out1 m ρ c),
      (h c _ (Cert.KernelIdeal.Gen.mem_uc Cert.KernelIdeal.main_v66 (by decide))).trans (Cert.KernelIdeal.KValue.out2 m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c),
      (h c _ (Cert.KernelIdeal.Gen.mem_uc Cert.KernelIdeal.main_arg16 (by decide))).trans (Cert.KernelIdeal.Gen.W10_main_arg16 m ρ c),
      (h c _ (Cert.KernelIdeal.Gen.mem_uc Cert.KernelIdeal.main_arg17 (by decide))).trans (Cert.KernelIdeal.Gen.W10_main_arg17 m ρ c),
      (h c _ (Cert.KernelIdeal.Gen.mem_uc Cert.KernelIdeal.main_arg18 (by decide))).trans (Cert.KernelIdeal.Gen.W10_main_arg18 m ρ c),
      (h c _ (Cert.KernelIdeal.Gen.mem_uc Cert.KernelIdeal.main_arg19 (by decide))).trans (Cert.KernelIdeal.Gen.W10_main_arg19 m ρ c),
      (h c _ (Cert.KernelIdeal.Gen.mem_uc Cert.KernelIdeal.main_arg20 (by decide))).trans (Cert.KernelIdeal.Gen.W10_main_arg20 m ρ c)⟩) (Cert.KernelIdeal.KRun.run_all m ρ)
  · refine (θ_run Cert.ReferenceIdeal.defs _ _).mono (fun r h c => ⟨(h c).1.trans ?_, (h c).2.1.trans ?_, (h c).2.2.1.trans ?_, (h c).2.2.2⟩)
      (Cert.ReferenceIdeal.RefRun.run_spec m' ρ')
    · rw [(hagree c).1, (hagree c).2.1, (hagree c).2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1]
    · rw [(hagree c).2.2.2.1, (hagree c).2.2.2.2.1, (hagree c).2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1]
    · rw [(hagree c).2.2.2.2.2.2.1, (hagree c).2.2.2.2.2.2.2.2.2.2.2.2.2.2.2.2.2.2.2.1, (hagree c).2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
